-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v109_0)) (v1 : (c : Dev Cert.KernelIdeal.nD) → Buf (Elt Ideal) ((c.tc : Thread Cert.KernelIdeal.nD Cert.KernelIdeal.τ).loc Cert.KernelIdeal.main_v109_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109_0) = v0 c
          ∧ r.2.mem ((c.tc : Thread Cert.KernelIdeal.nD Cert.KernelIdeal.τ).loc Cert.KernelIdeal.main_v109_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x1600000 32) (main_arg2 : FVec F S50000x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S128x256 : Shape := ⟨2, ![128, 256]⟩
abbrev S50000x256 : Shape := ⟨2, ![50000, 256]⟩
abbrev S5000x256 : Shape := ⟨2, ![5000, 256]⟩

abbrev nBuf : Space → Nat
  | .hbm => 144
  | .vmem => 37
  | .smem => 0
  | _ => 0

abbrev hbmTy0_0 (i : Nat) : BufTy := match i % 128 with
  | 0 => ⟨S50000x128, .f32⟩
  | 1 => ⟨S2x1600000, .i32⟩
  | 2 => ⟨S50000x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S50000, .f32⟩
  | 17 => ⟨S1600000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S50000, .f32⟩
  | 24 => ⟨S50000x1, .f32⟩
  | 25 => ⟨S128x128, .f32⟩
  | 26 => ⟨S50000x128, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S1600000x1, .f32⟩
  | 56 => ⟨S1600000x128, .f32⟩
  | 57 => ⟨S1600000x128, .f32⟩
  | 58 => ⟨S_, .f32⟩
  | 59 => ⟨S50000x128, .f32⟩
  | 60 => ⟨S1600000x1, .i32⟩
  | 61 => ⟨S50000x128, .f32⟩
  | 62 => ⟨S1x128, .f32⟩
  | 63 => ⟨S50000x128, .f32⟩
  | 64 => ⟨S128x128, .f32⟩
  | 65 => ⟨S128x128, .f32⟩
  | 66 => ⟨S128x256, .f32⟩
  | 67 => ⟨S50000x256, .f32⟩
  | 68 => ⟨S50000x128, .f32⟩
  | 69 => ⟨S50000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000, .f32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S1600000x1, .f32⟩
  | 99 => ⟨S1600000x128, .f32⟩
  | 100 => ⟨S1600000x128, .f32⟩
  | 101 => ⟨S_, .f32⟩
  | 102 => ⟨S50000x128, .f32⟩
  | 103 => ⟨S1600000x1, .i32⟩
  | 104 => ⟨S50000x128, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000, .f32⟩
  | 123 => ⟨S1600000, .f32⟩
  | 124 => ⟨S_, .i32⟩
  | 125 => ⟨S1600000, .i32⟩
  | 126 => ⟨S1600000, .i1⟩
  | 127 => ⟨S_, .i32⟩
  | _ => ⟨S50000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x128, .f32⟩
  | 5 => ⟨S1600000x1, .f32⟩
  | 6 => ⟨S1600000x128, .f32⟩
  | 7 => ⟨S1600000x128, .f32⟩
  | 8 => ⟨S_, .f32⟩
  | 9 => ⟨S50000x128, .f32⟩
  | 10 => ⟨S1600000x1, .i32⟩
  | 11 => ⟨S50000x128, .f32⟩
  | 12 => ⟨S1x128, .f32⟩
  | 13 => ⟨S1x128, .f32⟩
  | 14 => ⟨S50000x128, .f32⟩
  | 15 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x256, .f32⟩
  | .local _ .vmem, ⟨19, _⟩ => ⟨S5000x256, .f32⟩
  | .local _ .vmem, ⟨20, _⟩ => ⟨S5000x256, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S1x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_8 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_10 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_12 : Ref sig .tc := ⟨.hbm, 89, rfl⟩
abbrev main_v66 : Ref sig .tc := ⟨.hbm, 90, rfl⟩
abbrev main_v67 : Ref sig .tc := ⟨.hbm, 91, rfl⟩
abbrev main_c_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_14 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_c_15 : Ref sig .tc := ⟨.hbm, 105, rfl⟩
abbrev main_v79 : Ref sig .tc := ⟨.hbm, 106, rfl⟩
abbrev main_v80 : Ref sig .tc := ⟨.hbm, 107, rfl⟩
abbrev main_c_16 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_c_17 : Ref sig .tc := ⟨.hbm, 114, rfl⟩
abbrev main_v86 : Ref sig .tc := ⟨.hbm, 115, rfl⟩
abbrev main_v87 : Ref sig .tc := ⟨.hbm, 116, rfl⟩
abbrev main_c_18 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_c_19 : Ref sig .tc := ⟨.hbm, 124, rfl⟩
abbrev main_v94 : Ref sig .tc := ⟨.hbm, 125, rfl⟩
abbrev main_v95 : Ref sig .tc := ⟨.hbm, 126, rfl⟩
abbrev main_c_20 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_21 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109_0 : Ref sig .tc := ⟨.hbm, 142, rfl⟩
abbrev main_v109_1 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg7_1 : Ref sig .tc := ⟨.vmem, 34, rfl⟩
abbrev cc3_stg8_0 : Ref sig .tc := ⟨.vmem, 35, rfl⟩
abbrev cc3_stg8_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem4_1 : DmaSem sig := 30
abbrev cc3_sem5_0 : DmaSem sig := 31
abbrev cc3_sem6_0 : DmaSem sig := 32
abbrev cc3_sem7_0 : DmaSem sig := 33
abbrev cc3_sem7_1 : DmaSem sig := 34
abbrev cc3_sem8_0 : DmaSem sig := 35
abbrev cc3_sem8_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S128x128_S128x128_S128x256_d1 : Shape.Concatenates [S128x128, S128x128] S128x256 1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  slices_S50000x256_S50000x128_0_0 : S50000x256.Slices ![0, 0] S50000x128
  slices_S50000x256_S50000x128_0_128 : S50000x256.Slices ![0, 128] S50000x128
  scatter_S50000_S1600000x1_S1600000_n_0_0_1_wf : ScatterDims.WF S50000 S1600000x1 S1600000 [] [0] [0] 1
  dot_S5000x128_S128x128_S5000x128_1_0_0_1_n_n_wf : DotDims.WF S5000x128 S128x128 S5000x128 [1] [0] [0] [1] [] []
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S50000x1.size a
  hwx3_4 : ∀ i : grid3.Coords, EltTy.bits .f32 = 32 ∨ (Rect.block (s := S50000x1) S5000x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S50000x128.size a
  hwx3_8 : ∀ i : grid3.Coords, EltTy.bits .f32 = 32 ∨ (Rect.block (s := S50000x128) S5000x128.size (cc3_transform_8 i) (hinb3_8 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S5000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v78) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v106) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v50) S5000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v12) S5000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v107) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v108) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v109_0) S5000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v109_1) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩

abbrev nBuf : Space → Nat
  | .hbm => 162
  | .vmem => 0
  | .smem => 0
  | _ => 0

abbrev hbmTy0_0 (i : Nat) : BufTy := match i % 128 with
  | 0 => ⟨S50000x128, .f32⟩
  | 1 => ⟨S2x1600000, .i32⟩
  | 2 => ⟨S50000x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S50000, .f32⟩
  | 17 => ⟨S1600000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S128x128, .f32⟩
  | 24 => ⟨S50000x128, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S1600000x1, .f32⟩
  | 54 => ⟨S1600000x128, .f32⟩
  | 55 => ⟨S1600000x128, .f32⟩
  | 56 => ⟨S_, .f32⟩
  | 57 => ⟨S50000x128, .f32⟩
  | 58 => ⟨S1600000x1, .i32⟩
  | 59 => ⟨S50000x128, .f32⟩
  | 60 => ⟨S50000, .f32⟩
  | 61 => ⟨S50000x1, .f32⟩
  | 62 => ⟨S50000x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S128x128, .f32⟩
  | 73 => ⟨S50000x128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000, .f32⟩
  | 92 => ⟨S1600000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S1600000x1, .f32⟩
  | 103 => ⟨S1600000x128, .f32⟩
  | 104 => ⟨S1600000x128, .f32⟩
  | 105 => ⟨S_, .f32⟩
  | 106 => ⟨S50000x128, .f32⟩
  | 107 => ⟨S1600000x1, .i32⟩
  | 108 => ⟨S50000x128, .f32⟩
  | 109 => ⟨S50000, .f32⟩
  | 110 => ⟨S50000x1, .f32⟩
  | 111 => ⟨S50000x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S128x128, .f32⟩
  | 118 => ⟨S50000x128, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000, .f32⟩
  | _ => ⟨S50000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000, .f32⟩
  | 9 => ⟨S1600000, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x128, .f32⟩
  | 19 => ⟨S1600000x1, .f32⟩
  | 20 => ⟨S1600000x128, .f32⟩
  | 21 => ⟨S1600000x128, .f32⟩
  | 22 => ⟨S_, .f32⟩
  | 23 => ⟨S50000x128, .f32⟩
  | 24 => ⟨S1600000x1, .i32⟩
  | 25 => ⟨S50000x128, .f32⟩
  | 26 => ⟨S50000, .f32⟩
  | 27 => ⟨S50000x1, .f32⟩
  | 28 => ⟨S50000x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call0_cst : Ref sig .tc := ⟨.hbm, 69, rfl⟩
abbrev main_call0_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_8 : Ref sig .tc := ⟨.hbm, 74, rfl⟩
abbrev main_v53 : Ref sig .tc := ⟨.hbm, 75, rfl⟩
abbrev main_v54 : Ref sig .tc := ⟨.hbm, 76, rfl⟩
abbrev main_c_9 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_12 : Ref sig .tc := ⟨.hbm, 93, rfl⟩
abbrev main_v68 : Ref sig .tc := ⟨.hbm, 94, rfl⟩
abbrev main_v69 : Ref sig .tc := ⟨.hbm, 95, rfl⟩
abbrev main_c_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_c_15 : Ref sig .tc := ⟨.hbm, 119, rfl⟩
abbrev main_v91 : Ref sig .tc := ⟨.hbm, 120, rfl⟩
abbrev main_v92 : Ref sig .tc := ⟨.hbm, 121, rfl⟩
abbrev main_c_16 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_c_17 : Ref sig .tc := ⟨.hbm, 128, rfl⟩
abbrev main_v98 : Ref sig .tc := ⟨.hbm, 129, rfl⟩
abbrev main_v99 : Ref sig .tc := ⟨.hbm, 130, rfl⟩
abbrev main_c_18 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_c_19 : Ref sig .tc := ⟨.hbm, 138, rfl⟩
abbrev main_v106 : Ref sig .tc := ⟨.hbm, 139, rfl⟩
abbrev main_v107 : Ref sig .tc := ⟨.hbm, 140, rfl⟩
abbrev main_c_20 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_21 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  transposes_S128x128_S128x128_1_0 : S128x128.Transposes [1, 0] S128x128
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.KernelRun.lean ====
/-
  The idealized kernel's run with its two result arrays named.

  The program is four kernel regions among stretches of host operations. Its buffer contents at the end of the
  run are the last fold `W8` of the generated frame (the launch memory pushed through each stretch of host
  operations and each region's write-backs in turn). The run below states, beside the unchanged arguments, that
  the two result buffers end at that fold read at their references; the later modules read the fold back to a
  function of the arguments.
-/
import proofs.«100397_j84731114816416_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v109_0) = W8 m ρ c (Proc.devRef .tc main_v109_0)
      ∧ r.2.mem ((c.tc : Thread nD τ).loc main_v109_1) = W8 m ρ c (Proc.devRef .tc main_v109_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v109_0 (by decide)),
       h c _ (mem_uc main_v109_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Hand

end
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.Region2.lean ====
/-
  The third kernel region: a [50000,128] matrix times a [128,256] matrix, in ten row tiles of 5000 rows.

  The same product as the first region's, 256 columns wide: at grid point t the body multiplies rows
  5000·t … 5000·t+4999 of the left matrix by the whole right matrix into a zero accumulator and the pipeline
  writes the [5000,256] tile back. Entry (r, j) of the result array is ∑ₖ X(r,k)·W(k,j).
-/
import proofs.«100397_j84731114816416_1_alg».proof.Proof.Gen.KernelIdeal.Frame
import proofs.«100397_j84731114816416_1_alg».proof.Proof.LibPlainMatmul
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- The row-by-column product of a [50000,128] array and a [128,256] array, entry by entry. -/
def matProd256 (X : S50000x128.Idx → EReal) (W : S128x256.Idx → EReal) : S50000x256.Idx → EReal :=
  fun i => ∑ k : Fin 128, X (ix2 (i 0) k) * W (ix2 k (i 1))

theorem zeroOff2 : (![0, 0] : Fin 2 → Nat) = fun _ => 0 := funext fun a => by fin_cases a <;> rfl

/-- The body's stored value at entry (p, q) of the tile: the sum over k of the loaded tile's (p,k) times the loaded
    right matrix's (k,q) (narrowing an operand's format is the identity on the extended reals). -/
theorem pay2_apply (x0 : Vec Ideal S5000x128 .f32) (x1 : Vec Ideal S128x256 .f32) (y : S5000x256.Idx) :
    k2_pay1 x0 x1 y = ∑ k : Fin 128, x0 (ix2 (y 0) k) * x1 (ix2 k (y 1)) := by
  obtain ⟨p, q, rfl⟩ : ∃ (p : Fin 5000) (q : Fin 256), y = ix2 p q := ⟨y 0, y 1, eq_ix2 y⟩
  unfold k2_pay1
  refine (Cert.PlainMatmul.matmul_zero_apply (M := 5000) (K := 128) (N := 256) none _ _ p q).trans ?_
  refine Finset.sum_congr rfl fun k _ => ?_
  rw [shapeCast_self, shapeCast_self]
  rfl

section
variable (V : (c : Dev nD) → (b : Ref sig .tc) → Buf (Elt Ideal) ((c : Thread nD τ).loc b))

/-! The windows' block indices at point t: the two row-tiled windows sit at block (t, 0), the right matrix at (0, 0). -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)

/-- The left window's tile at point t, entry y, is the left array at row 5000·t + y₀, column y₁. -/
theorem iblk2_0_apply (c : Dev nD) (t : Fin cfg2.N) (y : S5000x128.Idx) (i : S50000x128.Idx)
    (h0 : (i 0).val = t.val * 5000 + (y 0).val) (h1 : (i 1).val = (y 1).val) :
    (iblk2 V c 0 t : Vec Ideal S5000x128 .f32) y = (V c main_v44 : S50000x128.Idx → EReal) i := by
  obtain ⟨e0, e1⟩ := idx2_0 t
  unfold iblk2
  rw [View.read_apply]
  show V c main_v44 _ = V c main_v44 _
  refine congrArg _ ?_
  funext a
  apply Fin.ext
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The right window's block at every point is the whole right array. -/
theorem iblk2_1_apply (c : Dev nD) (t : Fin cfg2.N) (y : S128x256.Idx) :
    (iblk2 V c 1 t : Vec Ideal S128x256 .f32) y = (V c main_v47 : S128x256.Idx → EReal) y := by
  obtain ⟨e0, e1⟩ := idx2_1 t
  unfold iblk2
  rw [View.read_apply]
  show V c main_v47 _ = V c main_v47 _
  refine congrArg _ ?_
  funext a
  apply Fin.ext
  match a with
  | ⟨0, _⟩ => show win2_1.index t (0 : Fin 2) * 128 + 1 * (y 0).val = (y 0).val; rw [e0]; omega
  | ⟨1, _⟩ => show win2_1.index t (1 : Fin 2) * 256 + 1 * (y 1).val = (y 1).val; rw [e1]; omega

/-- What point t writes back is tile t of the product of the two arrays the region finds. -/
theorem flushed2 (c : Dev nD) (t : Fin cfg2.N) :
    (dat2 V c).flushed 2 t
      = ((cfg2.win 2).blk t).view.read (Elt Ideal) (matProd256 (V c main_v44) (V c main_v47)) := by
  show (cfg2.win 2).cut (grid2.coords t) ((dat2 V c).after 2 t) = _
  rw [after2_2]
  unfold out2_2
  rw [View.canon_unit_zero zeroOff2]
  simp only [View.ld_unit_zero (S := S5000x128) zeroOff2, View.ld_unit_zero (S := S128x256) zeroOff2]
  funext j
  show k2_pay1 (iblk2 V c 0 t) (iblk2 V c 1 t) j
    = matProd256 (V c main_v44) (V c main_v47) (((cfg2.win 2).blk t).view.emb j)
  obtain ⟨e0, e1⟩ := idx2_2 t
  have hi0 : ((((cfg2.win 2).blk t).view.emb j) 0).val = t.val * 5000 + (j 0).val := by
    show win2_2.index t (0 : Fin 2) * 5000 + 1 * (j 0).val = _; rw [e0]; omega
  have hi1 : ((((cfg2.win 2).blk t).view.emb j) 1).val = (j 1).val := by
    show win2_2.index t (1 : Fin 2) * 256 + 1 * (j 1).val = _; rw [e1]; omega
  generalize ((cfg2.win 2).blk t).view.emb j = i at hi0 hi1
  refine (pay2_apply _ _ j).trans ?_
  unfold matProd256
  refine Finset.sum_congr rfl fun k _ => ?_
  refine congrArg₂ (· * ·) (iblk2_0_apply V c t _ _ hi0 rfl) ((iblk2_1_apply V c t _).trans ?_)
  exact congrArg _ (funext fun a => Fin.ext (by
    match a with
    | ⟨0, _⟩ => rfl
    | ⟨1, _⟩ => exact hi1.symm))

/-- An index is in point t's tile iff each coordinate is in the tile's range. -/
theorem mem_blk2 (t : Fin cfg2.N) (i : S50000x256.Idx) :
    i ∈ ((cfg2.win 2).blk t).view.set ↔ ∀ a : Fin 2, win2_2.index t a * S5000x256.size a ≤ (i a).val
      ∧ (i a).val < win2_2.index t a * S5000x256.size a + S5000x256.size a := by
  show i ∈ ((View.whole main_v48).slice (win2_2.rect t)).set ↔ _
  rw [View.set_slice_whole, Rect.mem_set_unit]
  exact Iff.rfl

/-- The ten row tiles cover the array: row r is in tile r / 5000. -/
theorem cover2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : grid2.N = 10 := N_2
  have ht : (i 0).val / 5000 < cfg2.N := by show (i 0).val / 5000 < grid2.N; rw [hN]; omega
  refine ⟨⟨(i 0).val / 5000, ht⟩, flush2_2 _, ?_⟩
  rw [mem_blk2]
  obtain ⟨e0, e1⟩ := idx2_2 ⟨(i 0).val / 5000, ht⟩
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_2.index ⟨(i 0).val / 5000, ht⟩ (1 : Fin 2) * 256 ≤ (i 1).val
      ∧ (i 1).val < win2_2.index ⟨(i 0).val / 5000, ht⟩ (1 : Fin 2) * 256 + 256
    rw [e1]; omega

/-- The result array after the region: the product of the two arrays the region finds. -/
theorem arr2 (c : Dev nD) :
    (dat2 V c).arrAt 2 cfg2.N = matProd256 (V c main_v44) (V c main_v47) :=
  (dat2 V c).arrAt_eq_of_cover 2 _ (fun t _ => flushed2 V c t) (cover2)

end

end Cert.KernelIdeal.Hand

end
-- ==== Proof.Region3.lean ====
/-
  The fourth kernel region: the finish of the second and third layers, in ten row tiles of 5000 rows, two results.

  At grid point t the body loads the tiles (rows 5000·t …) of the two aggregated-message arrays S₁, S₂, of the two
  linear outputs H₁, H₂, of the per-row factor D (a column), and the two whole bias rows B₁, B₂, and stores
  (S₁ + H₁·D) + B₁ and (S₂ + H₂·D) + B₂. So entry (r, j) of result a is (Sₐ(r,j) + Hₐ(r,j)·D(r,0)) + Bₐ(0,j).
-/
import proofs.«100397_j84731114816416_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- A later layer's finish, entry by entry. -/
def finishPlain (S H : S50000x128.Idx → EReal) (D : S50000x1.Idx → EReal) (B : S1x128.Idx → EReal) :
    S50000x128.Idx → EReal :=
  fun i => (S i + H i * D (ix2 (i 0) (0 : Fin 1))) + B (ix2 (0 : Fin 1) (i 1))

theorem zeroOff3 : (![0, 0] : Fin 2 → Nat) = fun _ => 0 := funext fun a => by fin_cases a <;> rfl

/-- A [5000,1] column broadcast across a [5000,128] tile, read at an entry: the column's entry of that row. -/
theorem bcastCol3_apply (v : Vec Ideal S5000x1 .f32) (y : S5000x128.Idx) :
    broadcastTo S5000x128 v broadcasts_S5000x1_S5000x128 y = v (ix2 (y 0) (0 : Fin 1)) :=
  broadcastTo_apply v _ y _ (fun a => match a with
    | ⟨0, _⟩ => by show (y 0).val = if (5000 : Nat) = 1 then 0 else (y 0).val; rw [if_neg (by decide)]
    | ⟨1, _⟩ => by show 0 = if (1 : Nat) = 1 then 0 else (y 1).val; rw [if_pos rfl])

/-- A [1,128] row broadcast down a [5000,128] tile, read at an entry: the row's entry of that column. -/
theorem bcastRow3_apply (v : Vec Ideal S1x128 .f32) (y : S5000x128.Idx) :
    broadcastTo S5000x128 v broadcasts_S1x128_S5000x128 y = v (ix2 (0 : Fin 1) (y 1)) :=
  broadcastTo_apply v _ y _ (fun a => match a with
    | ⟨0, _⟩ => by show 0 = if (1 : Nat) = 1 then 0 else (y 0).val; rw [if_pos rfl]
    | ⟨1, _⟩ => by show (y 1).val = if (128 : Nat) = 1 then 0 else (y 1).val; rw [if_neg (by decide)])

/-- The first stored value at an entry of the tile, from the loaded tiles. -/
theorem pay3a_apply (v0 : Vec Ideal S5000x1 .f32) (v2 v4 : Vec Ideal S5000x128 .f32) (v9 : Vec Ideal S1x128 .f32)
    (y : S5000x128.Idx) :
    k3_pay2 v0 v2 v4 v9 y = (v2 y + v4 y * v0 (ix2 (y 0) (0 : Fin 1))) + v9 (ix2 (0 : Fin 1) (y 1)) := by
  unfold k3_pay2 k3_pay1
  simp only [shapeCast_self]
  show (v2 y + v4 y * broadcastTo S5000x128 v0 broadcasts_S5000x1_S5000x128 y)
      + broadcastTo S5000x128 v9 broadcasts_S1x128_S5000x128 y = _
  rw [bcastCol3_apply, bcastRow3_apply]

/-- The second stored value likewise. -/
theorem pay3b_apply (v0 : Vec Ideal S5000x1 .f32) (v14 v16 : Vec Ideal S5000x128 .f32) (v21 : Vec Ideal S1x128 .f32)
    (y : S5000x128.Idx) :
    k3_pay3 v0 v14 v16 v21 y = (v14 y + v16 y * v0 (ix2 (y 0) (0 : Fin 1))) + v21 (ix2 (0 : Fin 1) (y 1)) := by
  unfold k3_pay3 k3_pay1
  simp only [shapeCast_self]
  show (v14 y + v16 y * broadcastTo S5000x128 v0 broadcasts_S5000x1_S5000x128 y)
      + broadcastTo S5000x128 v21 broadcasts_S1x128_S5000x128 y = _
  rw [bcastCol3_apply, bcastRow3_apply]

section
variable (V : (c : Dev nD) → (b : Ref sig .tc) → Buf (Elt Ideal) ((c : Thread nD τ).loc b))

/-! The windows' block indices at point t: the row-tiled windows sit at block (t, 0), the bias rows at (0, 0). -/
theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_3 : ∀ t : Fin cfg3.N, win3_3.index t (0 : Fin 2) = t.val ∧ win3_3.index t (1 : Fin 2) = 0 :=
  (by decide +kernel : ∀ t : Fin grid3.N, _)
theorem idx3_4 : ∀ t : Fin cfg3.N, win3_4.index t (0 : Fin 2) = t.val ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = t.val ∧ win3_7.index t (1 : Fin 2) = 0 :=
  (by decide +kernel : ∀ t : Fin grid3.N, _)
theorem idx3_8 : ∀ t : Fin cfg3.N, win3_8.index t (0 : Fin 2) = t.val ∧ win3_8.index t (1 : Fin 2) = 0 :=
  (by decide +kernel : ∀ t : Fin grid3.N, _)

/-- The first aggregated-message tile at point t, entry y, is the array at row 5000·t + y₀, column y₁. -/
theorem iblk3_0_apply (c : Dev nD) (t : Fin cfg3.N) (y : S5000x128.Idx) (i : S50000x128.Idx)
    (h0 : (i 0).val = t.val * 5000 + (y 0).val) (h1 : (i 1).val = (y 1).val) :
    (iblk3 V c 0 t : Vec Ideal S5000x128 .f32) y = (V c main_v78 : S50000x128.Idx → EReal) i := by
  obtain ⟨e0, e1⟩ := idx3_0 t
  unfold iblk3
  rw [View.read_apply]
  show V c main_v78 _ = V c main_v78 _
  refine congrArg _ ?_
  funext a
  apply Fin.ext
  match a with
  | ⟨0, _⟩ => show win3_0.index t (0 : Fin 2) * 5000 + 1 * (y 0).val = (i 0).val; rw [e0, h0]; omega
  | ⟨1, _⟩ => show win3_0.index t (1 : Fin 2) * 128 + 1 * (y 1).val = (i 1).val; rw [e1, h1]; omega

/-- The second aggregated-message tile likewise. -/
theorem iblk3_1_apply (c : Dev nD) (t : Fin cfg3.N) (y : S5000x128.Idx) (i : S50000x128.Idx)
    (h0 : (i 0).val = t.val * 5000 + (y 0).val) (h1 : (i 1).val = (y 1).val) :
    (iblk3 V c 1 t : Vec Ideal S5000x128 .f32) y = (V c main_v106 : S50000x128.Idx → EReal) i := by
  obtain ⟨e0, e1⟩ := idx3_1 t
  unfold iblk3
  rw [View.read_apply]
  show V c main_v106 _ = V c main_v106 _
  refine congrArg _ ?_
  funext a
  apply Fin.ext
  match a with
  | ⟨0, _⟩ => show win3_1.index t (0 : Fin 2) * 5000 + 1 * (y 0).val = (i 0).val; rw [e0, h0]; omega
  | ⟨1, _⟩ => show win3_1.index t (1 : Fin 2) * 128 + 1 * (y 1).val = (i 1).val; rw [e1, h1]; omega

/-- The first linear output's tile. -/
theorem iblk3_2_apply (c : Dev nD) (t : Fin cfg3.N) (y : S5000x128.Idx) (i : S50000x128.Idx)
    (h0 : (i 0).val = t.val * 5000 + (y 0).val) (h1 : (i 1).val = (y 1).val) :
    (iblk3 V c 2 t : Vec Ideal S5000x128 .f32) y = (V c main_v49 : S50000x128.Idx → EReal) i := by
  obtain ⟨e0, e1⟩ := idx3_2 t
  unfold iblk3
  rw [View.read_apply]
  show V c main_v49 _ = V c main_v49 _
  refine congrArg _ ?_
  funext a
  apply Fin.ext
  match a with
  | ⟨0, _⟩ => show win3_2.index t (0 : Fin 2) * 5000 + 1 * (y 0).val = (i 0).val; rw [e0, h0]; omega
  | ⟨1, _⟩ => show win3_2.index t (1 : Fin 2) * 128 + 1 * (y 1).val = (i 1).val; rw [e1, h1]; omega

/-- The second linear output's tile. -/
theorem iblk3_3_apply (c : Dev nD) (t : Fin cfg3.N) (y : S5000x128.Idx) (i : S50000x128.Idx)
    (h0 : (i 0).val = t.val * 5000 + (y 0).val) (h1 : (i 1).val = (y 1).val) :
    (iblk3 V c 3 t : Vec Ideal S5000x128 .f32) y = (V c main_v50 : S50000x128.Idx → EReal) i := by
  obtain ⟨e0, e1⟩ := idx3_3 t
  unfold iblk3
  rw [View.read_apply]
  show V c main_v50 _ = V c main_v50 _
  refine congrArg _ ?_
  funext a
  apply Fin.ext
  match a with
  | ⟨0, _⟩ => show win3_3.index t (0 : Fin 2) * 5000 + 1 * (y 0).val = (i 0).val; rw [e0, h0]; omega
  | ⟨1, _⟩ => show win3_3.index t (1 : Fin 2) * 128 + 1 * (y 1).val = (i 1).val; rw [e1, h1]; omega

/-- The per-row factor's tile at point t: rows 5000·t … of the column. -/
theorem iblk3_4_apply (c : Dev nD) (t : Fin cfg3.N) (y : S5000x1.Idx) (i : S50000x1.Idx)
    (h0 : (i 0).val = t.val * 5000 + (y 0).val) (h1 : (i 1).val = (y 1).val) :
    (iblk3 V c 4 t : Vec Ideal S5000x1 .f32) y = (V c main_v12 : S50000x1.Idx → EReal) i := by
  obtain ⟨e0, e1⟩ := idx3_4 t
  unfold iblk3
  rw [View.read_apply]
  show V c main_v12 _ = V c main_v12 _
  refine congrArg _ ?_
  funext a
  apply Fin.ext
  match a with
  | ⟨0, _⟩ => show win3_4.index t (0 : Fin 2) * 5000 + 1 * (y 0).val = (i 0).val; rw [e0, h0]; omega
  | ⟨1, _⟩ => show win3_4.index t (1 : Fin 2) * 1 + 1 * (y 1).val = (i 1).val; rw [e1, h1]; omega

/-- The first bias row's block at every point is the whole row. -/
theorem iblk3_5_apply (c : Dev nD) (t : Fin cfg3.N) (y : S1x128.Idx) :
    (iblk3 V c 5 t : Vec Ideal S1x128 .f32) y = (V c main_v107 : S1x128.Idx → EReal) y := by
  obtain ⟨e0, e1⟩ := idx3_5 t
  unfold iblk3
  rw [View.read_apply]
  show V c main_v107 _ = V c main_v107 _
  refine congrArg _ ?_
  funext a
  apply Fin.ext
  match a with
  | ⟨0, _⟩ => show win3_5.index t (0 : Fin 2) * 1 + 1 * (y 0).val = (y 0).val; rw [e0]; omega
  | ⟨1, _⟩ => show win3_5.index t (1 : Fin 2) * 128 + 1 * (y 1).val = (y 1).val; rw [e1]; omega

/-- The second bias row's block at every point is the whole row. -/
theorem iblk3_6_apply (c : Dev nD) (t : Fin cfg3.N) (y : S1x128.Idx) :
    (iblk3 V c 6 t : Vec Ideal S1x128 .f32) y = (V c main_v108 : S1x128.Idx → EReal) y := by
  obtain ⟨e0, e1⟩ := idx3_6 t
  unfold iblk3
  rw [View.read_apply]
  show V c main_v108 _ = V c main_v108 _
  refine congrArg _ ?_
  funext a
  apply Fin.ext
  match a with
  | ⟨0, _⟩ => show win3_6.index t (0 : Fin 2) * 1 + 1 * (y 0).val = (y 0).val; rw [e0]; omega
  | ⟨1, _⟩ => show win3_6.index t (1 : Fin 2) * 128 + 1 * (y 1).val = (y 1).val; rw [e1]; omega

/-- What point t writes back to the first result is tile t of the finish of the arrays the region finds. -/
theorem flushed3a (c : Dev nD) (t : Fin cfg3.N) :
    (dat3 V c).flushed 7 t
      = ((cfg3.win 7).blk t).view.read (Elt Ideal)
          (finishPlain (V c main_v78) (V c main_v49) (V c main_v12) (V c main_v107)) := by
  show (cfg3.win 7).cut (grid3.coords t) ((dat3 V c).after 7 t) = _
  rw [after3_7]
  unfold out3_7
  rw [View.canon_unit_zero zeroOff3]
  simp only [View.ld_unit_zero (S := S5000x128) zeroOff3, View.ld_unit_zero (S := S5000x1) zeroOff3,
    View.ld_unit_zero (S := S1x128) zeroOff3]
  funext j
  show k3_pay2 (iblk3 V c 4 t) (iblk3 V c 0 t) (iblk3 V c 2 t) (iblk3 V c 5 t) j
    = finishPlain (V c main_v78) (V c main_v49) (V c main_v12) (V c main_v107) (((cfg3.win 7).blk t).view.emb j)
  obtain ⟨e0, e1⟩ := idx3_7 t
  have hi0 : ((((cfg3.win 7).blk t).view.emb j) 0).val = t.val * 5000 + (j 0).val := by
    show win3_7.index t (0 : Fin 2) * 5000 + 1 * (j 0).val = _; rw [e0]; omega
  have hi1 : ((((cfg3.win 7).blk t).view.emb j) 1).val = (j 1).val := by
    show win3_7.index t (1 : Fin 2) * 128 + 1 * (j 1).val = _; rw [e1]; omega
  generalize ((cfg3.win 7).blk t).view.emb j = i at hi0 hi1
  refine (pay3a_apply _ _ _ _ j).trans ?_
  unfold finishPlain
  have a1 := iblk3_0_apply V c t j i hi0 hi1
  have a2 := iblk3_2_apply V c t j i hi0 hi1
  have a3 := iblk3_4_apply V c t (ix2 (j 0) (0 : Fin 1)) (ix2 (i 0) (0 : Fin 1)) hi0 rfl
  have a4 : (iblk3 V c 5 t : Vec Ideal S1x128 .f32) (ix2 (0 : Fin 1) (j 1))
      = (V c main_v107 : S1x128.Idx → EReal) (ix2 (0 : Fin 1) (i 1)) :=
    (iblk3_5_apply V c t _).trans (congrArg _ (funext fun a => Fin.ext (by
      match a with
      | ⟨0, _⟩ => rfl
      | ⟨1, _⟩ => exact hi1.symm)))
  exact congrArg₂ (· + ·) (congrArg₂ (· + ·) a1 (congrArg₂ (· * ·) a2 a3)) a4

/-- What point t writes back to the second result likewise. -/
theorem flushed3b (c : Dev nD) (t : Fin cfg3.N) :
    (dat3 V c).flushed 8 t
      = ((cfg3.win 8).blk t).view.read (Elt Ideal)
          (finishPlain (V c main_v106) (V c main_v50) (V c main_v12) (V c main_v108)) := by
  show (cfg3.win 8).cut (grid3.coords t) ((dat3 V c).after 8 t) = _
  rw [after3_8]
  unfold out3_8
  rw [View.canon_unit_zero zeroOff3]
  simp only [View.ld_unit_zero (S := S5000x128) zeroOff3, View.ld_unit_zero (S := S5000x1) zeroOff3,
    View.ld_unit_zero (S := S1x128) zeroOff3]
  funext j
  show k3_pay3 (iblk3 V c 4 t) (iblk3 V c 1 t) (iblk3 V c 3 t) (iblk3 V c 6 t) j
    = finishPlain (V c main_v106) (V c main_v50) (V c main_v12) (V c main_v108) (((cfg3.win 8).blk t).view.emb j)
  obtain ⟨e0, e1⟩ := idx3_8 t
  have hi0 : ((((cfg3.win 8).blk t).view.emb j) 0).val = t.val * 5000 + (j 0).val := by
    show win3_8.index t (0 : Fin 2) * 5000 + 1 * (j 0).val = _; rw [e0]; omega
  have hi1 : ((((cfg3.win 8).blk t).view.emb j) 1).val = (j 1).val := by
    show win3_8.index t (1 : Fin 2) * 128 + 1 * (j 1).val = _; rw [e1]; omega
  generalize ((cfg3.win 8).blk t).view.emb j = i at hi0 hi1
  refine (pay3b_apply _ _ _ _ j).trans ?_
  unfold finishPlain
  have a1 := iblk3_1_apply V c t j i hi0 hi1
  have a2 := iblk3_3_apply V c t j i hi0 hi1
  have a3 := iblk3_4_apply V c t (ix2 (j 0) (0 : Fin 1)) (ix2 (i 0) (0 : Fin 1)) hi0 rfl
  have a4 : (iblk3 V c 6 t : Vec Ideal S1x128 .f32) (ix2 (0 : Fin 1) (j 1))
      = (V c main_v108 : S1x128.Idx → EReal) (ix2 (0 : Fin 1) (i 1)) :=
    (iblk3_6_apply V c t _).trans (congrArg _ (funext fun a => Fin.ext (by
      match a with
      | ⟨0, _⟩ => rfl
      | ⟨1, _⟩ => exact hi1.symm)))
  exact congrArg₂ (· + ·) (congrArg₂ (· + ·) a1 (congrArg₂ (· * ·) a2 a3)) a4

/-- An index is in point t's tile iff each coordinate is in the tile's range. -/
theorem mem_blk3a (t : Fin cfg3.N) (i : S50000x128.Idx) :
    i ∈ ((cfg3.win 7).blk t).view.set ↔ ∀ a : Fin 2, win3_7.index t a * S5000x128.size a ≤ (i a).val
      ∧ (i a).val < win3_7.index t a * S5000x128.size a + S5000x128.size a := by
  show i ∈ ((View.whole main_v109_0).slice (win3_7.rect t)).set ↔ _
  rw [View.set_slice_whole, Rect.mem_set_unit]
  exact Iff.rfl

/-- The ten row tiles cover the array: row r is in tile r / 5000. -/
theorem cover3a (i : S50000x128.Idx) :
    ∃ t : Fin cfg3.N, (cfg3.win 7).flush t = true ∧ i ∈ ((cfg3.win 7).blk t).view.set := by
  have hi0 : (i 0).val < 50000 := (i 0).isLt
  have hi1 : (i 1).val < 128 := (i 1).isLt
  have hN : grid3.N = 10 := N_3
  have ht : (i 0).val / 5000 < cfg3.N := by show (i 0).val / 5000 < grid3.N; rw [hN]; omega
  refine ⟨⟨(i 0).val / 5000, ht⟩, flush3_7 _, ?_⟩
  rw [mem_blk3a]
  obtain ⟨e0, e1⟩ := idx3_7 ⟨(i 0).val / 5000, ht⟩
  intro a
  match a with
  | ⟨0, _⟩ =>
    show win3_7.index ⟨(i 0).val / 5000, ht⟩ (0 : Fin 2) * 5000 ≤ (i 0).val
      ∧ (i 0).val < win3_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_7.index ⟨(i 0).val / 5000, ht⟩ (1 : Fin 2) * 128 ≤ (i 1).val
      ∧ (i 1).val < win3_7.index ⟨(i 0).val / 5000, ht⟩ (1 : Fin 2) * 128 + 128
    rw [e1]; omega

/-- An index is in point t's tile iff each coordinate is in the tile's range. -/
theorem mem_blk3b (t : Fin cfg3.N) (i : S50000x128.Idx) :
    i ∈ ((cfg3.win 8).blk t).view.set ↔ ∀ a : Fin 2, win3_8.index t a * S5000x128.size a ≤ (i a).val
      ∧ (i a).val < win3_8.index t a * S5000x128.size a + S5000x128.size a := by
  show i ∈ ((View.whole main_v109_1).slice (win3_8.rect t)).set ↔ _
  rw [View.set_slice_whole, Rect.mem_set_unit]
  exact Iff.rfl

/-- The ten row tiles cover the array: row r is in tile r / 5000. -/
theorem cover3b (i : S50000x128.Idx) :
    ∃ t : Fin cfg3.N, (cfg3.win 8).flush t = true ∧ i ∈ ((cfg3.win 8).blk t).view.set := by
  have hi0 : (i 0).val < 50000 := (i 0).isLt
  have hi1 : (i 1).val < 128 := (i 1).isLt
  have hN : grid3.N = 10 := N_3
  have ht : (i 0).val / 5000 < cfg3.N := by show (i 0).val / 5000 < grid3.N; rw [hN]; omega
  refine ⟨⟨(i 0).val / 5000, ht⟩, flush3_8 _, ?_⟩
  rw [mem_blk3b]
  obtain ⟨e0, e1⟩ := idx3_8 ⟨(i 0).val / 5000, ht⟩
  intro a
  match a with
  | ⟨0, _⟩ =>
    show win3_8.index ⟨(i 0).val / 5000, ht⟩ (0 : Fin 2) * 5000 ≤ (i 0).val
      ∧ (i 0).val < win3_8.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_8.index ⟨(i 0).val / 5000, ht⟩ (1 : Fin 2) * 128 ≤ (i 1).val
      ∧ (i 1).val < win3_8.index ⟨(i 0).val / 5000, ht⟩ (1 : Fin 2) * 128 + 128
    rw [e1]; omega

/-- The first result array after the region. -/
theorem arr3a (c : Dev nD) :
    (dat3 V c).arrAt 7 cfg3.N = finishPlain (V c main_v78) (V c main_v49) (V c main_v12) (V c main_v107) :=
  (dat3 V c).arrAt_eq_of_cover 7 _ (fun t _ => flushed3a V c t) cover3a

/-- The second result array after the region. -/
theorem arr3b (c : Dev nD) :
    (dat3 V c).arrAt 8 cfg3.N = finishPlain (V c main_v106) (V c main_v50) (V c main_v12) (V c main_v108) :=
  (dat3 V c).arrAt_eq_of_cover 8 _ (fun t _ => flushed3b V c t) cover3b

end

end Cert.KernelIdeal.Hand

end
-- ==== Proof.Region0.lean ====
/-
  The first kernel region: a [50000,128] matrix times a [128,128] matrix, in ten row tiles of 5000 rows.

  At grid point t the body loads rows 5000·t … 5000·t+4999 of the left matrix and the whole right matrix,
  multiplies them on the matrix unit into a zero accumulator (the narrowing of the operands to bf16 is the
  identity on the extended reals) and stores the [5000,128] product, which the pipeline writes back to rows
  5000·t … of the result. So entry (r, j) of the result array is ∑ₖ X(r,k)·W(k,j) of the arrays X, W the region
  finds at its two input windows: each tile is that function read through its rectangle, and the ten row tiles
  cover the array.
-/
import proofs.«100397_j84731114816416_1_alg».proof.Proof.Gen.KernelIdeal.Frame
import proofs.«100397_j84731114816416_1_alg».proof.Proof.LibPlainMatmul
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- The row-by-column product of a [50000,128] array and a [128,128] array, entry by entry. -/
def matProd128 (X : S50000x128.Idx → EReal) (W : S128x128.Idx → EReal) : S50000x128.Idx → EReal :=
  fun i => ∑ k : Fin 128, X (ix2 (i 0) k) * W (ix2 k (i 1))

theorem zeroOff0 : (![0, 0] : Fin 2 → Nat) = fun _ => 0 := funext fun a => by fin_cases a <;> rfl

/-- The body's stored value at entry (p, q) of the tile: the sum over k of the loaded tile's (p,k) times the loaded
    right matrix's (k,q) (narrowing an operand's format is the identity on the extended reals). -/
theorem pay0_apply (x0 : Vec Ideal S5000x128 .f32) (x1 : Vec Ideal S128x128 .f32) (y : S5000x128.Idx) :
    k0_pay1 x0 x1 y = ∑ k : Fin 128, x0 (ix2 (y 0) k) * x1 (ix2 k (y 1)) := by
  obtain ⟨p, q, rfl⟩ : ∃ (p : Fin 5000) (q : Fin 128), y = ix2 p q := ⟨y 0, y 1, eq_ix2 y⟩
  unfold k0_pay1
  refine (Cert.PlainMatmul.matmul_zero_apply (M := 5000) (K := 128) (N := 128) none _ _ p q).trans ?_
  refine Finset.sum_congr rfl fun k _ => ?_
  rw [shapeCast_self]
  rfl

section
variable (V : (c : Dev nD) → (b : Ref sig .tc) → Buf (Elt Ideal) ((c : Thread nD τ).loc b))

/-! The windows' block indices at point t: the two row-tiled windows sit at block (t, 0), the right matrix at (0, 0). -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)

/-- The left window's tile at point t, entry y, is the left array at row 5000·t + y₀, column y₁. -/
theorem iblk0_0_apply (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c main_arg0 : S50000x128.Idx → EReal) i := by
  obtain ⟨e0, e1⟩ := idx0_0 t
  unfold iblk0
  rw [View.read_apply]
  show V c main_arg0 _ = V c main_arg0 _
  refine congrArg _ ?_
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The right window's block at every point is the whole right array. -/
theorem iblk0_1_apply (c : Dev nD) (t : Fin cfg0.N) (y : S128x128.Idx) :
    (iblk0 V c 1 t : Vec Ideal S128x128 .f32) y = (V c main_v13 : S128x128.Idx → EReal) y := by
  obtain ⟨e0, e1⟩ := idx0_1 t
  unfold iblk0
  rw [View.read_apply]
  show V c main_v13 _ = V c main_v13 _
  refine congrArg _ ?_
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- What point t writes back is tile t of the product of the two arrays the region finds. -/
theorem flushed0 (c : Dev nD) (t : Fin cfg0.N) :
    (dat0 V c).flushed 2 t
      = ((cfg0.win 2).blk t).view.read (Elt Ideal) (matProd128 (V c main_arg0) (V c main_v13)) := by
  show (cfg0.win 2).cut (grid0.coords t) ((dat0 V c).after 2 t) = _
  rw [after0_2]
  unfold out0_2
  rw [View.canon_unit_zero zeroOff0]
  simp only [View.ld_unit_zero (S := S5000x128) zeroOff0, View.ld_unit_zero (S := S128x128) zeroOff0]
  funext j
  show k0_pay1 (iblk0 V c 0 t) (iblk0 V c 1 t) j
    = matProd128 (V c main_arg0) (V c main_v13) (((cfg0.win 2).blk t).view.emb j)
  obtain ⟨e0, e1⟩ := idx0_2 t
  have hi0 : ((((cfg0.win 2).blk t).view.emb j) 0).val = t.val * 5000 + (j 0).val := by
    show win0_2.index t (0 : Fin 2) * 5000 + 1 * (j 0).val = _; rw [e0]; omega
  have hi1 : ((((cfg0.win 2).blk t).view.emb j) 1).val = (j 1).val := by
    show win0_2.index t (1 : Fin 2) * 128 + 1 * (j 1).val = _; rw [e1]; omega
  generalize ((cfg0.win 2).blk t).view.emb j = i at hi0 hi1
  refine (pay0_apply _ _ j).trans ?_
  unfold matProd128
  refine Finset.sum_congr rfl fun k _ => ?_
  refine congrArg₂ (· * ·) (iblk0_0_apply V c t _ _ hi0 rfl) ((iblk0_1_apply V c t _).trans ?_)
  exact congrArg _ (funext fun a => Fin.ext (by
    match a with
    | ⟨0, _⟩ => rfl
    | ⟨1, _⟩ => exact hi1.symm))

/-- An index is in point t's tile iff each coordinate is in the tile's range. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v14).slice (win0_2.rect t)).set ↔ _
  rw [View.set_slice_whole, Rect.mem_set_unit]
  exact Iff.rfl

/-- The ten row tiles cover the array: row r is in tile r / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  have ht : (i 0).val / 5000 < cfg0.N := by show (i 0).val / 5000 < grid0.N; rw [hN]; omega
  refine ⟨⟨(i 0).val / 5000, ht⟩, flush0_2 _, ?_⟩
  rw [mem_blk0]
  obtain ⟨e0, e1⟩ := idx0_2 ⟨(i 0).val / 5000, ht⟩
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e1]; omega

/-- The result array after the region: the product of the two arrays the region finds. -/
theorem arr0 (c : Dev nD) :
    (dat0 V c).arrAt 2 cfg0.N = matProd128 (V c main_arg0) (V c main_v13) :=
  (dat0 V c).arrAt_eq_of_cover 2 _ (fun t _ => flushed0 V c t) (cover0)

end

end Cert.KernelIdeal.Hand

end
-- ==== Proof.Region1.lean ====
/-
  The second kernel region: the first layer's finish, in ten row tiles of 5000 rows.

  At grid point t the body loads the tiles (rows 5000·t …) of the aggregated messages S, of the layer's linear
  output H, of the per-row factor D (a column), of the dropout mask M, and the whole bias row B, and stores
  max (((S + H·D) + B)·M, 0), the column D and the row B broadcast across the tile. So entry (r, j) of the result
  array is max (((S(r,j) + H(r,j)·D(r,0)) + B(0,j))·M(r,j), 0) of the five arrays the region finds.
-/
import proofs.«100397_j84731114816416_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- The first layer's finish, entry by entry. -/
def finishRelu (S H : S50000x128.Idx → EReal) (D : S50000x1.Idx → EReal) (B : S1x128.Idx → EReal)
    (M : S50000x128.Idx → EReal) : S50000x128.Idx → EReal :=
  fun i => max (((S i + H i * D (ix2 (i 0) (0 : Fin 1))) + B (ix2 (0 : Fin 1) (i 1))) * M i) (Ideal.ofBits .f32 0x00000000#32)

theorem zeroOff1 : (![0, 0] : Fin 2 → Nat) = fun _ => 0 := funext fun a => by fin_cases a <;> rfl

/-- A [5000,1] column broadcast across a [5000,128] tile, read at an entry: the column's entry of that row. -/
theorem bcastCol_apply (v : Vec Ideal S5000x1 .f32) (y : S5000x128.Idx) :
    broadcastTo S5000x128 v broadcasts_S5000x1_S5000x128 y = v (ix2 (y 0) (0 : Fin 1)) :=
  broadcastTo_apply v _ y _ (fun a => match a with
    | ⟨0, _⟩ => by show (y 0).val = if (5000 : Nat) = 1 then 0 else (y 0).val; rw [if_neg (by decide)]
    | ⟨1, _⟩ => by show 0 = if (1 : Nat) = 1 then 0 else (y 1).val; rw [if_pos rfl])

/-- A [1,128] row broadcast down a [5000,128] tile, read at an entry: the row's entry of that column. -/
theorem bcastRow_apply (v : Vec Ideal S1x128 .f32) (y : S5000x128.Idx) :
    broadcastTo S5000x128 v broadcasts_S1x128_S5000x128 y = v (ix2 (0 : Fin 1) (y 1)) :=
  broadcastTo_apply v _ y _ (fun a => match a with
    | ⟨0, _⟩ => by show 0 = if (1 : Nat) = 1 then 0 else (y 0).val; rw [if_pos rfl]
    | ⟨1, _⟩ => by show (y 1).val = if (128 : Nat) = 1 then 0 else (y 1).val; rw [if_neg (by decide)])

/-- The body's stored value at an entry of the tile, from the loaded tiles. -/
theorem pay1_apply (v0 : Vec Ideal S5000x1 .f32) (v2 v4 : Vec Ideal S5000x128 .f32) (v9 : Vec Ideal S1x128 .f32)
    (v13 : Vec Ideal S5000x128 .f32) (y : S5000x128.Idx) :
    k1_pay1 v0 v2 v4 v9 v13 y
      = max (((v2 y + v4 y * v0 (ix2 (y 0) (0 : Fin 1))) + v9 (ix2 (0 : Fin 1) (y 1))) * v13 y) (Ideal.ofBits .f32 0x00000000#32) := by
  unfold k1_pay1
  simp only [shapeCast_self]
  show max (((v2 y + v4 y * broadcastTo S5000x128 v0 broadcasts_S5000x1_S5000x128 y)
      + broadcastTo S5000x128 v9 broadcasts_S1x128_S5000x128 y) * v13 y) (Ideal.ofBits .f32 0x00000000#32) = _
  rw [bcastCol_apply, bcastRow_apply]

section
variable (V : (c : Dev nD) → (b : Ref sig .tc) → Buf (Elt Ideal) ((c : Thread nD τ).loc b))

/-! The windows' block indices at point t: the row-tiled windows sit at block (t, 0), the bias row at (0, 0). -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)

/-- The aggregated messages' tile at point t, entry y, is the array at row 5000·t + y₀, column y₁. -/
theorem iblk1_0_apply (c : Dev nD) (t : Fin cfg1.N) (y : S5000x128.Idx) (i : S50000x128.Idx)
    (h0 : (i 0).val = t.val * 5000 + (y 0).val) (h1 : (i 1).val = (y 1).val) :
    (iblk1 V c 0 t : Vec Ideal S5000x128 .f32) y = (V c main_v42 : S50000x128.Idx → EReal) i := by
  obtain ⟨e0, e1⟩ := idx1_0 t
  unfold iblk1
  rw [View.read_apply]
  show V c main_v42 _ = V c main_v42 _
  refine congrArg _ ?_
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The linear output's tile at point t likewise. -/
theorem iblk1_1_apply (c : Dev nD) (t : Fin cfg1.N) (y : S5000x128.Idx) (i : S50000x128.Idx)
    (h0 : (i 0).val = t.val * 5000 + (y 0).val) (h1 : (i 1).val = (y 1).val) :
    (iblk1 V c 1 t : Vec Ideal S5000x128 .f32) y = (V c main_v14 : S50000x128.Idx → EReal) i := by
  obtain ⟨e0, e1⟩ := idx1_1 t
  unfold iblk1
  rw [View.read_apply]
  show V c main_v14 _ = V c main_v14 _
  refine congrArg _ ?_
  funext a
  apply Fin.ext
  match a with
  | ⟨0, _⟩ => show win1_1.index t (0 : Fin 2) * 5000 + 1 * (y 0).val = (i 0).val; rw [e0, h0]; omega
  | ⟨1, _⟩ => show win1_1.index t (1 : Fin 2) * 128 + 1 * (y 1).val = (i 1).val; rw [e1, h1]; omega

/-- The per-row factor's tile at point t: rows 5000·t … of the column. -/
theorem iblk1_2_apply (c : Dev nD) (t : Fin cfg1.N) (y : S5000x1.Idx) (i : S50000x1.Idx)
    (h0 : (i 0).val = t.val * 5000 + (y 0).val) (h1 : (i 1).val = (y 1).val) :
    (iblk1 V c 2 t : Vec Ideal S5000x1 .f32) y = (V c main_v12 : S50000x1.Idx → EReal) i := by
  obtain ⟨e0, e1⟩ := idx1_2 t
  unfold iblk1
  rw [View.read_apply]
  show V c main_v12 _ = V c main_v12 _
  refine congrArg _ ?_
  funext a
  apply Fin.ext
  match a with
  | ⟨0, _⟩ => show win1_2.index t (0 : Fin 2) * 5000 + 1 * (y 0).val = (i 0).val; rw [e0, h0]; omega
  | ⟨1, _⟩ => show win1_2.index t (1 : Fin 2) * 1 + 1 * (y 1).val = (i 1).val; rw [e1, h1]; omega

/-- The bias row's block at every point is the whole row. -/
theorem iblk1_3_apply (c : Dev nD) (t : Fin cfg1.N) (y : S1x128.Idx) :
    (iblk1 V c 3 t : Vec Ideal S1x128 .f32) y = (V c main_v43 : S1x128.Idx → EReal) y := by
  obtain ⟨e0, e1⟩ := idx1_3 t
  unfold iblk1
  rw [View.read_apply]
  show V c main_v43 _ = V c main_v43 _
  refine congrArg _ ?_
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The mask's tile at point t. -/
theorem iblk1_4_apply (c : Dev nD) (t : Fin cfg1.N) (y : S5000x128.Idx) (i : S50000x128.Idx)
    (h0 : (i 0).val = t.val * 5000 + (y 0).val) (h1 : (i 1).val = (y 1).val) :
    (iblk1 V c 4 t : Vec Ideal S5000x128 .f32) y = (V c main_arg2 : S50000x128.Idx → EReal) i := by
  obtain ⟨e0, e1⟩ := idx1_4 t
  unfold iblk1
  rw [View.read_apply]
  show V c main_arg2 _ = V c main_arg2 _
  refine congrArg _ ?_
  funext a
  apply Fin.ext
  match a with
  | ⟨0, _⟩ => show win1_4.index t (0 : Fin 2) * 5000 + 1 * (y 0).val = (i 0).val; rw [e0, h0]; omega
  | ⟨1, _⟩ => show win1_4.index t (1 : Fin 2) * 128 + 1 * (y 1).val = (i 1).val; rw [e1, h1]; omega

/-- What point t writes back is tile t of the finish of the five arrays the region finds. -/
theorem flushed1 (c : Dev nD) (t : Fin cfg1.N) :
    (dat1 V c).flushed 5 t
      = ((cfg1.win 5).blk t).view.read (Elt Ideal)
          (finishRelu (V c main_v42) (V c main_v14) (V c main_v12) (V c main_v43) (V c main_arg2)) := by
  show (cfg1.win 5).cut (grid1.coords t) ((dat1 V c).after 5 t) = _
  rw [after1_5]
  unfold out1_5
  rw [View.canon_unit_zero zeroOff1]
  simp only [View.ld_unit_zero (S := S5000x128) zeroOff1, View.ld_unit_zero (S := S5000x1) zeroOff1,
    View.ld_unit_zero (S := S1x128) zeroOff1]
  funext j
  show k1_pay1 (iblk1 V c 2 t) (iblk1 V c 0 t) (iblk1 V c 1 t) (iblk1 V c 3 t) (iblk1 V c 4 t) j
    = finishRelu (V c main_v42) (V c main_v14) (V c main_v12) (V c main_v43) (V c main_arg2)
        (((cfg1.win 5).blk t).view.emb j)
  obtain ⟨e0, e1⟩ := idx1_5 t
  have hi0 : ((((cfg1.win 5).blk t).view.emb j) 0).val = t.val * 5000 + (j 0).val := by
    show win1_5.index t (0 : Fin 2) * 5000 + 1 * (j 0).val = _; rw [e0]; omega
  have hi1 : ((((cfg1.win 5).blk t).view.emb j) 1).val = (j 1).val := by
    show win1_5.index t (1 : Fin 2) * 128 + 1 * (j 1).val = _; rw [e1]; omega
  generalize ((cfg1.win 5).blk t).view.emb j = i at hi0 hi1
  refine (pay1_apply _ _ _ _ _ j).trans ?_
  unfold finishRelu
  have a1 := iblk1_0_apply V c t j i hi0 hi1
  have a2 := iblk1_1_apply V c t j i hi0 hi1
  have a3 := iblk1_2_apply V c t (ix2 (j 0) (0 : Fin 1)) (ix2 (i 0) (0 : Fin 1)) hi0 rfl
  have a4 : (iblk1 V c 3 t : Vec Ideal S1x128 .f32) (ix2 (0 : Fin 1) (j 1))
      = (V c main_v43 : S1x128.Idx → EReal) (ix2 (0 : Fin 1) (i 1)) :=
    (iblk1_3_apply V c t _).trans (congrArg _ (funext fun a => Fin.ext (by
      match a with
      | ⟨0, _⟩ => rfl
      | ⟨1, _⟩ => exact hi1.symm)))
  have a5 := iblk1_4_apply V c t j i hi0 hi1
  exact congrArg₂ max (congrArg₂ (· * ·) (congrArg₂ (· + ·) (congrArg₂ (· + ·) a1 (congrArg₂ (· * ·) a2 a3)) a4) a5) rfl

/-- An index is in point t's tile iff each coordinate is in the tile's range. -/
theorem mem_blk1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v44).slice (win1_5.rect t)).set ↔ _
  rw [View.set_slice_whole, Rect.mem_set_unit]
  exact Iff.rfl

/-- The ten row tiles cover the array: row r is in tile r / 5000. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 10 := N_1
  have ht : (i 0).val / 5000 < cfg1.N := by show (i 0).val / 5000 < grid1.N; rw [hN]; omega
  refine ⟨⟨(i 0).val / 5000, ht⟩, flush1_5 _, ?_⟩
  rw [mem_blk1]
  obtain ⟨e0, e1⟩ := idx1_5 ⟨(i 0).val / 5000, ht⟩
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e1]; omega

/-- The result array after the region: the finish of the five arrays the region finds. -/
theorem arr1 (c : Dev nD) :
    (dat1 V c).arrAt 5 cfg1.N
      = finishRelu (V c main_v42) (V c main_v14) (V c main_v12) (V c main_v43) (V c main_arg2) :=
  (dat1 V c).arrAt_eq_of_cover 5 _ (fun t _ => flushed1 V c t) cover1

end

end Cert.KernelIdeal.Hand

end
-- ==== Proof.Bridge.lean ====
/-
  The regions' entry-by-entry functions met with the reference's host operations.

  Each kernel region leaves one whole-array function of the arrays it finds: a row-by-column product, or a finish
  (S + H·D) + B with the per-row factor D laid out as a column and the bias B as a row. The reference computes the same
  values with host operations on whole arrays: a dot_general against a transposed weight, and broadcasts of the
  factor (dinv·dinv) and of the bias over the [50000,128] grid. Entry by entry the two spellings agree:
  · the product of X and W at (r, j) is ∑ₖ X(r,k)·W(k,j), which is the host's dot_general of X and W at (r, j);
  · the column D at (r, 0) and the factor's broadcast at (r, j) are both the factor's entry r, the row B at (0, j) and
    the bias's broadcast at (r, j) both the bias's entry j;
  · columns 0…127 of the product with the two transposed weights laid side by side are the product with the first,
    columns 128…255 the product with the second.
  No law of arithmetic is used: both sides are the same sums and products of the same entries.
-/
import proofs.«100397_j84731114816416_1_alg».proof.Proof.Region0
import proofs.«100397_j84731114816416_1_alg».proof.Proof.Region1
import proofs.«100397_j84731114816416_1_alg».proof.Proof.Region2
import proofs.«100397_j84731114816416_1_alg».proof.Proof.Region3
import proofs.«100397_j84731114816416_1_alg».proof.Proof.LibPlainMatmul
import proofs.«100397_j84731114816416_1_alg».proof.Proof.Gen.ReferenceIdeal.Read
import Idealize.ShloMosaic.Lib.ValueLayout

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- The per-row factor as the kernel's program lays it out: the vector dinv·dinv recast as a [50000,1] column. -/
def colD (x1 : (⟨S2x1600000, .i32⟩ : BufTy).Contents (Elt Ideal)) : FVec Ideal S50000x1 .f32 :=
  shapeCast S50000x1 (Cert.ReferenceIdeal.Read.val_main_v41 (F := Ideal) x1) shapeCasts_S50000_S50000x1

/-- A bias vector as the kernel's program lays it out: recast as a [1,128] row. -/
def rowB (b : FVec Ideal S128 .f32) : FVec Ideal S1x128 .f32 := shapeCast S1x128 b shapeCasts_S128_S1x128

/-- The two transposed weights laid side by side, [128,256]. -/
def catW (x5 x7 : FVec Ideal S128x128 .f32) : FVec Ideal S128x256 .f32 :=
  concatenate S128x256 1 [⟨S128x128, Cert.ReferenceIdeal.Read.val_main_v51 (F := Ideal) x5⟩,
    ⟨S128x128, Cert.ReferenceIdeal.Read.val_main_v89 (F := Ideal) x7⟩] concatenates_S128x128_S128x128_S128x256_d1

theorem colD_apply (x1 : (⟨S2x1600000, .i32⟩ : BufTy).Contents (Elt Ideal)) (p : Fin 50000) (u : Fin 1) :
    colD x1 (ix2 p u) = Cert.ReferenceIdeal.Read.val_main_v41 (F := Ideal) x1 (ix1 p) :=
  shapeCast_apply _ _ _ _ (by
    have hu : u.val = 0 := by omega
    rw [Shape.rowMajor_val_two, Shape.rowMajor_val_one]
    show p.val = p.val * 1 + u.val
    omega)

theorem rowB_apply (b : FVec Ideal S128 .f32) (u : Fin 1) (q : Fin 128) : rowB b (ix2 u q) = b (ix1 q) :=
  shapeCast_a_1a_apply b _ u q

/-- The product of two arrays, entry by entry, is the host's dot_general of them. -/
theorem matProd128_eq_dot (X : FVec Ideal S50000x128 .f32) (W : FVec Ideal S128x128 .f32) :
    matProd128 X W
      = Host.dotGeneral Cert.ReferenceIdeal.dot_S50000x128_S128x128_S50000x128_1_0_0_1_n_n none X W := by
  funext i
  obtain ⟨p, q, rfl⟩ : ∃ (p : Fin 50000) (q : Fin 128), i = ix2 p q := ⟨i 0, i 1, eq_ix2 i⟩
  exact (Cert.PlainMatmul.dotGeneral_apply (M := 50000) (K := 128) (N := 128) none X W p q).symm

/-- The factor's two broadcasts of the reference, read at (p, q): the factor's entry p. -/
theorem factor_apply (x1 : (⟨S2x1600000, .i32⟩ : BufTy).Contents (Elt Ideal)) (p : Fin 50000) (q : Fin 128) :
    Cert.ReferenceIdeal.Read.val_main_v43 (F := Ideal) x1 (ix2 p q)
      = Cert.ReferenceIdeal.Read.val_main_v41 (F := Ideal) x1 (ix1 p) := by
  rw [Cert.ReferenceIdeal.Read.val_main_v43_apply, Cert.ReferenceIdeal.Read.val_main_v42_apply]
  exact congrArg _ (funext fun a => by match a with | ⟨0, _⟩ => rfl)

/-- A bias's two broadcasts of the reference, read at (p, q): the bias's entry q. -/
theorem bias_apply (b : FVec Ideal S128 .f32) (p : Fin 50000) (q : Fin 128) :
    Cert.ReferenceIdeal.Read.val_main_v47 (F := Ideal) b (ix2 p q) = b (ix1 q) := by
  rw [Cert.ReferenceIdeal.Read.val_main_v47_apply, Cert.ReferenceIdeal.Read.val_main_v46_apply]
  exact congrArg _ (funext fun a => by match a with | ⟨0, _⟩ => rfl)

/-- The first layer's finish, entry by entry, is the reference's chain of whole-array operations. -/
theorem finishRelu_eq (S H : FVec Ideal S50000x128 .f32) (x1 : (⟨S2x1600000, .i32⟩ : BufTy).Contents (Elt Ideal))
    (b : FVec Ideal S128 .f32) (M : FVec Ideal S50000x128 .f32) :
    finishRelu S H (colD x1) (rowB b) M
      = maximumf (mulf (addf (addf S (mulf H (Cert.ReferenceIdeal.Read.val_main_v43 (F := Ideal) x1)))
          (Cert.ReferenceIdeal.Read.val_main_v47 (F := Ideal) b)) M) (Cert.ReferenceIdeal.Read.val_main_call0_v0 (F := Ideal)) := by
  funext i
  obtain ⟨p, q, rfl⟩ : ∃ (p : Fin 50000) (q : Fin 128), i = ix2 p q := ⟨i 0, i 1, eq_ix2 i⟩
  show max (((S (ix2 p q) + H (ix2 p q) * colD x1 (ix2 p (0 : Fin 1))) + rowB b (ix2 (0 : Fin 1) q)) * M (ix2 p q))
      (Ideal.ofBits .f32 0x00000000#32)
    = max (((S (ix2 p q) + H (ix2 p q) * Cert.ReferenceIdeal.Read.val_main_v43 (F := Ideal) x1 (ix2 p q))
      + Cert.ReferenceIdeal.Read.val_main_v47 (F := Ideal) b (ix2 p q)) * M (ix2 p q))
      (Cert.ReferenceIdeal.Read.val_main_call0_v0 (F := Ideal) (ix2 p q))
  rw [colD_apply, rowB_apply, factor_apply, bias_apply, Cert.ReferenceIdeal.Read.val_main_call0_v0_apply,
    Cert.ReferenceIdeal.Read.val_main_call0_cst_apply]
  rfl

/-- A later layer's finish, entry by entry, is the reference's chain of whole-array operations. -/
theorem finishPlain_eq (S H : FVec Ideal S50000x128 .f32) (x1 : (⟨S2x1600000, .i32⟩ : BufTy).Contents (Elt Ideal))
    (b : FVec Ideal S128 .f32) :
    finishPlain S H (colD x1) (rowB b)
      = addf (addf S (mulf H (Cert.ReferenceIdeal.Read.val_main_v43 (F := Ideal) x1)))
          (Cert.ReferenceIdeal.Read.val_main_v47 (F := Ideal) b) := by
  funext i
  obtain ⟨p, q, rfl⟩ : ∃ (p : Fin 50000) (q : Fin 128), i = ix2 p q := ⟨i 0, i 1, eq_ix2 i⟩
  show (S (ix2 p q) + H (ix2 p q) * colD x1 (ix2 p (0 : Fin 1))) + rowB b (ix2 (0 : Fin 1) q)
    = (S (ix2 p q) + H (ix2 p q) * Cert.ReferenceIdeal.Read.val_main_v43 (F := Ideal) x1 (ix2 p q))
      + Cert.ReferenceIdeal.Read.val_main_v47 (F := Ideal) b (ix2 p q)
  rw [colD_apply, rowB_apply, factor_apply, bias_apply]

/-- Columns 0…127 of the product with the two transposed weights side by side: the dot_general with the first. -/
theorem sliceL_eq (H : FVec Ideal S50000x128 .f32) (x5 x7 : FVec Ideal S128x128 .f32) :
    extractStridedSlice S50000x128 ![0, 0] (matProd256 H (catW x5 x7)) slices_S50000x256_S50000x128_0_0
      = Host.dotGeneral (φ₁ := .f32) (φ₂ := .f32) Cert.ReferenceIdeal.dot_S50000x128_S128x128_S50000x128_1_0_0_1_n_n none H
          (Cert.ReferenceIdeal.Read.val_main_v51 (F := Ideal) x5) := by
  funext i
  obtain ⟨p, q, rfl⟩ : ∃ (p : Fin 50000) (q : Fin 128), i = ix2 p q := ⟨i 0, i 1, eq_ix2 i⟩
  refine (slice2_axis1_apply 0 _ slices_S50000x256_S50000x128_0_0 p q ⟨q.val, by omega⟩ (by show q.val = 0 + q.val; omega)).trans ?_
  refine Eq.trans ?_ (Cert.PlainMatmul.dotGeneral_apply (M := 50000) (K := 128) (N := 128) none H
    (Cert.ReferenceIdeal.Read.val_main_v51 (F := Ideal) x5) p q).symm
  show ∑ k : Fin 128, H (ix2 p k) * catW x5 x7 (ix2 k (⟨q.val, by omega⟩ : Fin 256))
    = ∑ k : Fin 128, H (ix2 p k) * Cert.ReferenceIdeal.Read.val_main_v51 (F := Ideal) x5 (ix2 k q)
  refine Finset.sum_congr rfl fun k _ => congrArg _ ?_
  unfold catW
  exact concatenate_pair_apply_left (t := S128x256) (s₁ := S128x128) (s₂ := S128x128) (1 : Fin 2)
    (Cert.ReferenceIdeal.Read.val_main_v51 (F := Ideal) x5) (Cert.ReferenceIdeal.Read.val_main_v89 (F := Ideal) x7)
    concatenates_S128x128_S128x128_S128x256_d1
    (ix2 k (⟨q.val, by omega⟩ : Fin 256)) rfl (ix2 k q) (fun b => by
    match b with
    | ⟨0, _⟩ => rfl
    | ⟨1, _⟩ => rfl)

/-- Columns 128…255 of that product: the dot_general with the second transposed weight. -/
theorem sliceR_eq (H : FVec Ideal S50000x128 .f32) (x5 x7 : FVec Ideal S128x128 .f32) :
    extractStridedSlice S50000x128 ![0, 128] (matProd256 H (catW x5 x7)) slices_S50000x256_S50000x128_0_128
      = Host.dotGeneral (φ₁ := .f32) (φ₂ := .f32) Cert.ReferenceIdeal.dot_S50000x128_S128x128_S50000x128_1_0_0_1_n_n none H
          (Cert.ReferenceIdeal.Read.val_main_v89 (F := Ideal) x7) := by
  funext i
  obtain ⟨p, q, rfl⟩ : ∃ (p : Fin 50000) (q : Fin 128), i = ix2 p q := ⟨i 0, i 1, eq_ix2 i⟩
  refine (slice2_axis1_apply 128 _ slices_S50000x256_S50000x128_0_128 p q ⟨128 + q.val, by omega⟩ rfl).trans ?_
  refine Eq.trans ?_ (Cert.PlainMatmul.dotGeneral_apply (M := 50000) (K := 128) (N := 128) none H
    (Cert.ReferenceIdeal.Read.val_main_v89 (F := Ideal) x7) p q).symm
  show ∑ k : Fin 128, H (ix2 p k) * catW x5 x7 (ix2 k (⟨128 + q.val, by omega⟩ : Fin 256))
    = ∑ k : Fin 128, H (ix2 p k) * Cert.ReferenceIdeal.Read.val_main_v89 (F := Ideal) x7 (ix2 k q)
  refine Finset.sum_congr rfl fun k _ => congrArg _ ?_
  unfold catW
  exact concatenate_pair_apply_right (t := S128x256) (s₁ := S128x128) (s₂ := S128x128) (1 : Fin 2)
    (Cert.ReferenceIdeal.Read.val_main_v51 (F := Ideal) x5) (Cert.ReferenceIdeal.Read.val_main_v89 (F := Ideal) x7)
    concatenates_S128x128_S128x128_S128x256_d1
    (ix2 k (⟨128 + q.val, by omega⟩ : Fin 256)) rfl rfl (ix2 k q) (fun b hb => by
    match b with
    | ⟨0, _⟩ => rfl
    | ⟨1, _⟩ => exact absurd rfl hb) (by show q.val + 128 = 128 + q.val; omega)

end Cert.KernelIdeal.Hand

end
-- ==== Proof.FoldA.lean ====
/-
  The idealized kernel's buffers read back, first half: up to the end of the second region.

  The program's buffer contents at each boundary are a fold: the launch memory pushed through a stretch of host
  operations, then a region's arrays replaced by what its write-backs leave, and so on. Read at one buffer, a host
  stretch gives that buffer's operation applied to its operands' contents one boundary earlier, and a region gives
  its result array's entry-by-entry function of the arrays it found (the region modules), every other buffer
  unchanged. Walking the fold back to the launch memory, each buffer the later regions read is a function of the
  argument arrays; it is stated with the reference's own stage functions, which the kernel program's host operations
  spell out again operation by operation (the edge slices, the in-degree and its inverse square root, the
  gather–scale–scatter of the messages), and with the regions' closed forms met with the reference's whole-array
  operations in the bridge module:
  · after the first region its result is the reference's x·W0ᵀ;
  · after the second host stretch the aggregated messages of that product are the reference's;
  · after the second region its result is the reference's relu ((conv x)·mask).
-/
import proofs.«100397_j84731114816416_1_alg».proof.Proof.Gen.KernelIdeal.Frame
import proofs.«100397_j84731114816416_1_alg».proof.Proof.Gen.ReferenceIdeal.Read
import proofs.«100397_j84731114816416_1_alg».proof.Proof.Region0
import proofs.«100397_j84731114816416_1_alg».proof.Proof.Region1
import proofs.«100397_j84731114816416_1_alg».proof.Proof.Bridge
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

open Idealize.ShloMosaic.StableHlo

namespace Cert.KernelIdeal.Hand

open Cert.KernelIdeal Cert.KernelIdeal.Gen

variable (m : (ℓ : Loc nD τ sig) → Buf (Elt Ideal) ℓ) (ρ : Dev nD → PrngReg) (c : Dev nD)

/-! The argument arrays at launch. -/
abbrev a0 : FVec Ideal S50000x128 .f32 := m ((c : Thread nD τ).loc main_arg0)
abbrev a1 : (⟨S2x1600000, .i32⟩ : BufTy).Contents (Elt Ideal) := m ((c : Thread nD τ).loc main_arg1)
abbrev a2 : FVec Ideal S50000x128 .f32 := m ((c : Thread nD τ).loc main_arg2)
abbrev a3 : FVec Ideal S128x128 .f32 := m ((c : Thread nD τ).loc main_arg3)
abbrev a4 : FVec Ideal S128 .f32 := m ((c : Thread nD τ).loc main_arg4)
abbrev a5 : FVec Ideal S128x128 .f32 := m ((c : Thread nD τ).loc main_arg5)
abbrev a6 : FVec Ideal S128 .f32 := m ((c : Thread nD τ).loc main_arg6)
abbrev a7 : FVec Ideal S128x128 .f32 := m ((c : Thread nD τ).loc main_arg7)
abbrev a8 : FVec Ideal S128 .f32 := m ((c : Thread nD τ).loc main_arg8)

/-! ## After the first host stretch: the edge lists, the inverse square root of the in-degree, the per-row factor as
    a column, the first weight transposed; the arguments as launched. -/
theorem w1_v1 : W1 m ρ c (Proc.devRef .tc main_v1) = Cert.ReferenceIdeal.Read.val_main_v1 (F := Ideal) (a1 m c) := by
  show StableHlo.after hostOps0 (W0 m ρ c) (Proc.devRef .tc main_v1) = _
  after_results
  try rfl

theorem w1_v3 : W1 m ρ c (Proc.devRef .tc main_v3) = Cert.ReferenceIdeal.Read.val_main_v3 (F := Ideal) (a1 m c) := by
  show StableHlo.after hostOps0 (W0 m ρ c) (Proc.devRef .tc main_v3) = _
  after_results
  try rfl

theorem w1_v10 : W1 m ρ c (Proc.devRef .tc main_v10) = Cert.ReferenceIdeal.Read.val_main_v10 (F := Ideal) (a1 m c) := by
  show StableHlo.after hostOps0 (W0 m ρ c) (Proc.devRef .tc main_v10) = _
  after_results
  try rfl

theorem w1_v12 : W1 m ρ c (Proc.devRef .tc main_v12) = colD (a1 m c) := by
  show StableHlo.after hostOps0 (W0 m ρ c) (Proc.devRef .tc main_v12) = _
  after_results
  try rfl

theorem w1_arg2 : W1 m ρ c (Proc.devRef .tc main_arg2) = a2 m c := by
  show StableHlo.after hostOps0 (W0 m ρ c) (Proc.devRef .tc main_arg2) = _
  after_results
  try rfl

theorem w1_arg4 : W1 m ρ c (Proc.devRef .tc main_arg4) = a4 m c := by
  show StableHlo.after hostOps0 (W0 m ρ c) (Proc.devRef .tc main_arg4) = _
  after_results
  try rfl

theorem w1_arg5 : W1 m ρ c (Proc.devRef .tc main_arg5) = a5 m c := by
  show StableHlo.after hostOps0 (W0 m ρ c) (Proc.devRef .tc main_arg5) = _
  after_results
  try rfl

theorem w1_arg6 : W1 m ρ c (Proc.devRef .tc main_arg6) = a6 m c := by
  show StableHlo.after hostOps0 (W0 m ρ c) (Proc.devRef .tc main_arg6) = _
  after_results
  try rfl

theorem w1_arg7 : W1 m ρ c (Proc.devRef .tc main_arg7) = a7 m c := by
  show StableHlo.after hostOps0 (W0 m ρ c) (Proc.devRef .tc main_arg7) = _
  after_results
  try rfl

theorem w1_arg8 : W1 m ρ c (Proc.devRef .tc main_arg8) = a8 m c := by
  show StableHlo.after hostOps0 (W0 m ρ c) (Proc.devRef .tc main_arg8) = _
  after_results
  try rfl

theorem w1_arg0 : W1 m ρ c (Proc.devRef .tc main_arg0) = a0 m c := by
  show StableHlo.after hostOps0 (W0 m ρ c) (Proc.devRef .tc main_arg0) = _
  after_results
  try rfl

theorem w1_v13 : W1 m ρ c (Proc.devRef .tc main_v13) = Cert.ReferenceIdeal.Read.val_main_v11 (F := Ideal) (a3 m c) := by
  show StableHlo.after hostOps0 (W0 m ρ c) (Proc.devRef .tc main_v13) = _
  after_results
  try rfl

/-! ## After the first region: its result is the reference's first linear output; the rest is untouched. -/
theorem w2_v14 : W2 m ρ c (Proc.devRef .tc main_v14) = Cert.ReferenceIdeal.Read.val_main_v12 (F := Ideal) (a0 m c) (a3 m c) := by
  refine (W2_arr m ρ c 2).trans ?_
  rw [arr0 (V1 m ρ) c]
  show matProd128 (W1 m ρ c (Proc.devRef .tc main_arg0)) (W1 m ρ c (Proc.devRef .tc main_v13)) = _
  rw [w1_arg0, w1_v13]
  exact matProd128_eq_dot _ _

theorem w2_v1 : W2 m ρ c (Proc.devRef .tc main_v1) = Cert.ReferenceIdeal.Read.val_main_v1 (F := Ideal) (a1 m c) :=
  (W2_of_ne m ρ c main_v1 (by decide)).trans (w1_v1 m ρ c)

theorem w2_v3 : W2 m ρ c (Proc.devRef .tc main_v3) = Cert.ReferenceIdeal.Read.val_main_v3 (F := Ideal) (a1 m c) :=
  (W2_of_ne m ρ c main_v3 (by decide)).trans (w1_v3 m ρ c)

theorem w2_v10 : W2 m ρ c (Proc.devRef .tc main_v10) = Cert.ReferenceIdeal.Read.val_main_v10 (F := Ideal) (a1 m c) :=
  (W2_of_ne m ρ c main_v10 (by decide)).trans (w1_v10 m ρ c)

theorem w2_v12 : W2 m ρ c (Proc.devRef .tc main_v12) = colD (a1 m c) :=
  (W2_of_ne m ρ c main_v12 (by decide)).trans (w1_v12 m ρ c)

theorem w2_arg2 : W2 m ρ c (Proc.devRef .tc main_arg2) = a2 m c :=
  (W2_of_ne m ρ c main_arg2 (by decide)).trans (w1_arg2 m ρ c)

theorem w2_arg4 : W2 m ρ c (Proc.devRef .tc main_arg4) = a4 m c :=
  (W2_of_ne m ρ c main_arg4 (by decide)).trans (w1_arg4 m ρ c)

theorem w2_arg5 : W2 m ρ c (Proc.devRef .tc main_arg5) = a5 m c :=
  (W2_of_ne m ρ c main_arg5 (by decide)).trans (w1_arg5 m ρ c)

theorem w2_arg6 : W2 m ρ c (Proc.devRef .tc main_arg6) = a6 m c :=
  (W2_of_ne m ρ c main_arg6 (by decide)).trans (w1_arg6 m ρ c)

theorem w2_arg7 : W2 m ρ c (Proc.devRef .tc main_arg7) = a7 m c :=
  (W2_of_ne m ρ c main_arg7 (by decide)).trans (w1_arg7 m ρ c)

theorem w2_arg8 : W2 m ρ c (Proc.devRef .tc main_arg8) = a8 m c :=
  (W2_of_ne m ρ c main_arg8 (by decide)).trans (w1_arg8 m ρ c)

/-! ## After the second host stretch: the first layer's aggregated messages and its bias as a row. -/
set_option maxHeartbeats 4000000 in
theorem w3_v42 : W3 m ρ c (Proc.devRef .tc main_v42)
    = Cert.ReferenceIdeal.Read.val_main_v40 (F := Ideal) (a0 m c) (a1 m c) (a3 m c) := by
  show StableHlo.after hostOps1 (W2 m ρ c) (Proc.devRef .tc main_v42) = _
  after_results_simp
  rw [w2_v14, w2_v1, w2_v3, w2_v10]
  rfl

theorem w3_v43 : W3 m ρ c (Proc.devRef .tc main_v43) = rowB (a4 m c) := by
  show StableHlo.after hostOps1 (W2 m ρ c) (Proc.devRef .tc main_v43) = _
  after_results_simp
  rw [w2_arg4]
  rfl

theorem w3_v14 : W3 m ρ c (Proc.devRef .tc main_v14) = Cert.ReferenceIdeal.Read.val_main_v12 (F := Ideal) (a0 m c) (a3 m c) := by
  have h : StableHlo.after hostOps1 (W2 m ρ c) (Proc.devRef .tc main_v14) = W2 m ρ c (Proc.devRef .tc main_v14) := by
    after_results_simp
  exact h.trans (w2_v14 m ρ c)

theorem w3_v1 : W3 m ρ c (Proc.devRef .tc main_v1) = Cert.ReferenceIdeal.Read.val_main_v1 (F := Ideal) (a1 m c) := by
  have h : StableHlo.after hostOps1 (W2 m ρ c) (Proc.devRef .tc main_v1) = W2 m ρ c (Proc.devRef .tc main_v1) := by
    after_results_simp
  exact h.trans (w2_v1 m ρ c)

theorem w3_v3 : W3 m ρ c (Proc.devRef .tc main_v3) = Cert.ReferenceIdeal.Read.val_main_v3 (F := Ideal) (a1 m c) := by
  have h : StableHlo.after hostOps1 (W2 m ρ c) (Proc.devRef .tc main_v3) = W2 m ρ c (Proc.devRef .tc main_v3) := by
    after_results_simp
  exact h.trans (w2_v3 m ρ c)

theorem w3_v10 : W3 m ρ c (Proc.devRef .tc main_v10) = Cert.ReferenceIdeal.Read.val_main_v10 (F := Ideal) (a1 m c) := by
  have h : StableHlo.after hostOps1 (W2 m ρ c) (Proc.devRef .tc main_v10) = W2 m ρ c (Proc.devRef .tc main_v10) := by
    after_results_simp
  exact h.trans (w2_v10 m ρ c)

theorem w3_v12 : W3 m ρ c (Proc.devRef .tc main_v12) = colD (a1 m c) := by
  have h : StableHlo.after hostOps1 (W2 m ρ c) (Proc.devRef .tc main_v12) = W2 m ρ c (Proc.devRef .tc main_v12) := by
    after_results_simp
  exact h.trans (w2_v12 m ρ c)

theorem w3_arg2 : W3 m ρ c (Proc.devRef .tc main_arg2) = a2 m c := by
  have h : StableHlo.after hostOps1 (W2 m ρ c) (Proc.devRef .tc main_arg2) = W2 m ρ c (Proc.devRef .tc main_arg2) := by
    after_results_simp
  exact h.trans (w2_arg2 m ρ c)

theorem w3_arg5 : W3 m ρ c (Proc.devRef .tc main_arg5) = a5 m c := by
  have h : StableHlo.after hostOps1 (W2 m ρ c) (Proc.devRef .tc main_arg5) = W2 m ρ c (Proc.devRef .tc main_arg5) := by
    after_results_simp
  exact h.trans (w2_arg5 m ρ c)

theorem w3_arg6 : W3 m ρ c (Proc.devRef .tc main_arg6) = a6 m c := by
  have h : StableHlo.after hostOps1 (W2 m ρ c) (Proc.devRef .tc main_arg6) = W2 m ρ c (Proc.devRef .tc main_arg6) := by
    after_results_simp
  exact h.trans (w2_arg6 m ρ c)

theorem w3_arg7 : W3 m ρ c (Proc.devRef .tc main_arg7) = a7 m c := by
  have h : StableHlo.after hostOps1 (W2 m ρ c) (Proc.devRef .tc main_arg7) = W2 m ρ c (Proc.devRef .tc main_arg7) := by
    after_results_simp
  exact h.trans (w2_arg7 m ρ c)

theorem w3_arg8 : W3 m ρ c (Proc.devRef .tc main_arg8) = a8 m c := by
  have h : StableHlo.after hostOps1 (W2 m ρ c) (Proc.devRef .tc main_arg8) = W2 m ρ c (Proc.devRef .tc main_arg8) := by
    after_results_simp
  exact h.trans (w2_arg8 m ρ c)

/-! ## After the second region: its result is the reference's first layer, relu ((conv x)·mask). -/
theorem w4_v44 : W4 m ρ c (Proc.devRef .tc main_v44)
    = Cert.ReferenceIdeal.Read.val_main_v50 (F := Ideal) (a0 m c) (a1 m c) (a2 m c) (a3 m c) (a4 m c) := by
  refine (W4_arr m ρ c 5).trans ?_
  rw [arr1 (V3 m ρ) c]
  show finishRelu (W3 m ρ c (Proc.devRef .tc main_v42)) (W3 m ρ c (Proc.devRef .tc main_v14))
    (W3 m ρ c (Proc.devRef .tc main_v12)) (W3 m ρ c (Proc.devRef .tc main_v43)) (W3 m ρ c (Proc.devRef .tc main_arg2)) = _
  rw [w3_v42, w3_v14, w3_v12, w3_v43, w3_arg2]
  exact finishRelu_eq _ _ _ _ _

theorem w4_v1 : W4 m ρ c (Proc.devRef .tc main_v1) = Cert.ReferenceIdeal.Read.val_main_v1 (F := Ideal) (a1 m c) :=
  (W4_of_ne m ρ c main_v1 (by decide)).trans (w3_v1 m ρ c)

theorem w4_v3 : W4 m ρ c (Proc.devRef .tc main_v3) = Cert.ReferenceIdeal.Read.val_main_v3 (F := Ideal) (a1 m c) :=
  (W4_of_ne m ρ c main_v3 (by decide)).trans (w3_v3 m ρ c)

theorem w4_v10 : W4 m ρ c (Proc.devRef .tc main_v10) = Cert.ReferenceIdeal.Read.val_main_v10 (F := Ideal) (a1 m c) :=
  (W4_of_ne m ρ c main_v10 (by decide)).trans (w3_v10 m ρ c)

/-- The per-row factor is one of the second region's input arrays: an input array ends the region as it entered. -/
theorem w4_v12 : W4 m ρ c (Proc.devRef .tc main_v12) = colD (a1 m c) :=
  ((W4_arr m ρ c 2).trans (((dat1 (V3 m ρ) c).arrAt_in 2 rfl _).trans (A_eq1 (V3 m ρ) c 2))).trans (w3_v12 m ρ c)

theorem w4_arg5 : W4 m ρ c (Proc.devRef .tc main_arg5) = a5 m c :=
  (W4_of_ne m ρ c main_arg5 (by decide)).trans (w3_arg5 m ρ c)

theorem w4_arg6 : W4 m ρ c (Proc.devRef .tc main_arg6) = a6 m c :=
  (W4_of_ne m ρ c main_arg6 (by decide)).trans (w3_arg6 m ρ c)

theorem w4_arg7 : W4 m ρ c (Proc.devRef .tc main_arg7) = a7 m c :=
  (W4_of_ne m ρ c main_arg7 (by decide)).trans (w3_arg7 m ρ c)

theorem w4_arg8 : W4 m ρ c (Proc.devRef .tc main_arg8) = a8 m c :=
  (W4_of_ne m ρ c main_arg8 (by decide)).trans (w3_arg8 m ρ c)

end Cert.KernelIdeal.Hand

end
-- ==== Proof.FoldB.lean ====
/-
  The idealized kernel's buffers read back, second half: from the third host stretch to the two results.

  · The third host stretch lays the second and third weights, transposed, side by side.
  · The third region's result is the product of the first layer's output with that [128,256] matrix; its columns
    0…127 and 128…255 are the reference's two linear outputs h·W1ᵀ and h·W2ᵀ.
  · The fourth host stretch gathers, scales and scatter-adds each of the two, as the reference does.
  · The fourth region's two results are then the reference's two convolutions.
-/
import proofs.«100397_j84731114816416_1_alg».proof.Proof.Gen.KernelIdeal.Frame
import proofs.«100397_j84731114816416_1_alg».proof.Proof.Gen.ReferenceIdeal.Read
import proofs.«100397_j84731114816416_1_alg».proof.Proof.Region2
import proofs.«100397_j84731114816416_1_alg».proof.Proof.Region3
import proofs.«100397_j84731114816416_1_alg».proof.Proof.Bridge
import proofs.«100397_j84731114816416_1_alg».proof.Proof.FoldA
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

open Idealize.ShloMosaic.StableHlo

namespace Cert.KernelIdeal.Hand

open Cert.KernelIdeal Cert.KernelIdeal.Gen

variable (m : (ℓ : Loc nD τ sig) → Buf (Elt Ideal) ℓ) (ρ : Dev nD → PrngReg) (c : Dev nD)

/-! ## After the third host stretch: the two transposed weights side by side. -/
theorem w5_v47 : W5 m ρ c (Proc.devRef .tc main_v47) = catW (a5 m c) (a7 m c) := by
  show StableHlo.after hostOps2 (W4 m ρ c) (Proc.devRef .tc main_v47) = _
  after_results
  rw [w4_arg5, w4_arg7]
  rfl

theorem w5_v44 : W5 m ρ c (Proc.devRef .tc main_v44)
    = Cert.ReferenceIdeal.Read.val_main_v50 (F := Ideal) (a0 m c) (a1 m c) (a2 m c) (a3 m c) (a4 m c) := by
  have h : StableHlo.after hostOps2 (W4 m ρ c) (Proc.devRef .tc main_v44) = W4 m ρ c (Proc.devRef .tc main_v44) := by
    after_results_simp
  exact h.trans (w4_v44 m ρ c)

theorem w5_v1 : W5 m ρ c (Proc.devRef .tc main_v1) = Cert.ReferenceIdeal.Read.val_main_v1 (F := Ideal) (a1 m c) := by
  have h : StableHlo.after hostOps2 (W4 m ρ c) (Proc.devRef .tc main_v1) = W4 m ρ c (Proc.devRef .tc main_v1) := by
    after_results_simp
  exact h.trans (w4_v1 m ρ c)

theorem w5_v3 : W5 m ρ c (Proc.devRef .tc main_v3) = Cert.ReferenceIdeal.Read.val_main_v3 (F := Ideal) (a1 m c) := by
  have h : StableHlo.after hostOps2 (W4 m ρ c) (Proc.devRef .tc main_v3) = W4 m ρ c (Proc.devRef .tc main_v3) := by
    after_results_simp
  exact h.trans (w4_v3 m ρ c)

theorem w5_v10 : W5 m ρ c (Proc.devRef .tc main_v10) = Cert.ReferenceIdeal.Read.val_main_v10 (F := Ideal) (a1 m c) := by
  have h : StableHlo.after hostOps2 (W4 m ρ c) (Proc.devRef .tc main_v10) = W4 m ρ c (Proc.devRef .tc main_v10) := by
    after_results_simp
  exact h.trans (w4_v10 m ρ c)

theorem w5_v12 : W5 m ρ c (Proc.devRef .tc main_v12) = colD (a1 m c) := by
  have h : StableHlo.after hostOps2 (W4 m ρ c) (Proc.devRef .tc main_v12) = W4 m ρ c (Proc.devRef .tc main_v12) := by
    after_results_simp
  exact h.trans (w4_v12 m ρ c)

theorem w5_arg6 : W5 m ρ c (Proc.devRef .tc main_arg6) = a6 m c := by
  have h : StableHlo.after hostOps2 (W4 m ρ c) (Proc.devRef .tc main_arg6) = W4 m ρ c (Proc.devRef .tc main_arg6) := by
    after_results_simp
  exact h.trans (w4_arg6 m ρ c)

theorem w5_arg8 : W5 m ρ c (Proc.devRef .tc main_arg8) = a8 m c := by
  have h : StableHlo.after hostOps2 (W4 m ρ c) (Proc.devRef .tc main_arg8) = W4 m ρ c (Proc.devRef .tc main_arg8) := by
    after_results_simp
  exact h.trans (w4_arg8 m ρ c)

/-! ## After the third region: the product of the first layer's output with the two weights side by side. -/
theorem w6_v48 : W6 m ρ c (Proc.devRef .tc main_v48)
    = matProd256 (Cert.ReferenceIdeal.Read.val_main_v50 (F := Ideal) (a0 m c) (a1 m c) (a2 m c) (a3 m c) (a4 m c)) (catW (a5 m c) (a7 m c)) := by
  refine (W6_arr m ρ c 2).trans ?_
  rw [arr2 (V5 m ρ) c]
  show matProd256 (W5 m ρ c (Proc.devRef .tc main_v44)) (W5 m ρ c (Proc.devRef .tc main_v47)) = _
  rw [w5_v44, w5_v47]

theorem w6_v1 : W6 m ρ c (Proc.devRef .tc main_v1) = Cert.ReferenceIdeal.Read.val_main_v1 (F := Ideal) (a1 m c) :=
  (W6_of_ne m ρ c main_v1 (by decide)).trans (w5_v1 m ρ c)

theorem w6_v3 : W6 m ρ c (Proc.devRef .tc main_v3) = Cert.ReferenceIdeal.Read.val_main_v3 (F := Ideal) (a1 m c) :=
  (W6_of_ne m ρ c main_v3 (by decide)).trans (w5_v3 m ρ c)

theorem w6_v10 : W6 m ρ c (Proc.devRef .tc main_v10) = Cert.ReferenceIdeal.Read.val_main_v10 (F := Ideal) (a1 m c) :=
  (W6_of_ne m ρ c main_v10 (by decide)).trans (w5_v10 m ρ c)

theorem w6_v12 : W6 m ρ c (Proc.devRef .tc main_v12) = colD (a1 m c) :=
  (W6_of_ne m ρ c main_v12 (by decide)).trans (w5_v12 m ρ c)

theorem w6_arg6 : W6 m ρ c (Proc.devRef .tc main_arg6) = a6 m c :=
  (W6_of_ne m ρ c main_arg6 (by decide)).trans (w5_arg6 m ρ c)

theorem w6_arg8 : W6 m ρ c (Proc.devRef .tc main_arg8) = a8 m c :=
  (W6_of_ne m ρ c main_arg8 (by decide)).trans (w5_arg8 m ρ c)

/-! ## After the fourth host stretch: the two linear outputs, their aggregated messages, the two biases as rows. -/
set_option maxHeartbeats 4000000 in
theorem w7_v49 : W7 m ρ c (Proc.devRef .tc main_v49)
    = Cert.ReferenceIdeal.Read.val_main_v52 (F := Ideal) (a0 m c) (a1 m c) (a2 m c) (a3 m c) (a4 m c) (a5 m c) := by
  show StableHlo.after hostOps3 (W6 m ρ c) (Proc.devRef .tc main_v49) = _
  after_results_simp
  rw [w6_v48]
  exact sliceL_eq _ _ _

set_option maxHeartbeats 4000000 in
theorem w7_v50 : W7 m ρ c (Proc.devRef .tc main_v50)
    = Cert.ReferenceIdeal.Read.val_main_v90 (F := Ideal) (a0 m c) (a1 m c) (a2 m c) (a3 m c) (a4 m c) (a7 m c) := by
  show StableHlo.after hostOps3 (W6 m ρ c) (Proc.devRef .tc main_v50) = _
  after_results_simp
  rw [w6_v48]
  exact sliceR_eq _ _ _

set_option maxHeartbeats 4000000 in
theorem w7_v78 : W7 m ρ c (Proc.devRef .tc main_v78)
    = Cert.ReferenceIdeal.Read.val_main_v80 (F := Ideal) (a0 m c) (a1 m c) (a2 m c) (a3 m c) (a4 m c) (a5 m c) := by
  show StableHlo.after hostOps3 (W6 m ρ c) (Proc.devRef .tc main_v78) = _
  after_results_simp
  rw [w6_v48, w6_v1, w6_v3, w6_v10, sliceL_eq]
  rfl

set_option maxHeartbeats 4000000 in
theorem w7_v106 : W7 m ρ c (Proc.devRef .tc main_v106)
    = Cert.ReferenceIdeal.Read.val_main_v118 (F := Ideal) (a0 m c) (a1 m c) (a2 m c) (a3 m c) (a4 m c) (a7 m c) := by
  show StableHlo.after hostOps3 (W6 m ρ c) (Proc.devRef .tc main_v106) = _
  after_results_simp
  rw [w6_v48, w6_v1, w6_v3, w6_v10, sliceR_eq]
  rfl

set_option maxHeartbeats 4000000 in
theorem w7_v107 : W7 m ρ c (Proc.devRef .tc main_v107) = rowB (a6 m c) := by
  show StableHlo.after hostOps3 (W6 m ρ c) (Proc.devRef .tc main_v107) = _
  after_results_simp
  rw [w6_arg6]
  rfl

set_option maxHeartbeats 4000000 in
theorem w7_v108 : W7 m ρ c (Proc.devRef .tc main_v108) = rowB (a8 m c) := by
  show StableHlo.after hostOps3 (W6 m ρ c) (Proc.devRef .tc main_v108) = _
  after_results_simp
  rw [w6_arg8]
  rfl

set_option maxHeartbeats 4000000 in
theorem w7_v12 : W7 m ρ c (Proc.devRef .tc main_v12) = colD (a1 m c) := by
  have h : StableHlo.after hostOps3 (W6 m ρ c) (Proc.devRef .tc main_v12) = W6 m ρ c (Proc.devRef .tc main_v12) := by
    after_results_simp
  exact h.trans (w6_v12 m ρ c)

/-! ## After the fourth region: the two results are the reference's two convolutions of the first layer's output. -/
theorem w8_out0 : W8 m ρ c (Proc.devRef .tc main_v109_0)
    = Cert.ReferenceIdeal.Read.val_main_v88 (F := Ideal) (a0 m c) (a1 m c) (a2 m c) (a3 m c) (a4 m c) (a5 m c) (a6 m c) := by
  refine (W8_arr m ρ c 7).trans ?_
  rw [arr3a (V7 m ρ) c]
  show finishPlain (W7 m ρ c (Proc.devRef .tc main_v78)) (W7 m ρ c (Proc.devRef .tc main_v49))
    (W7 m ρ c (Proc.devRef .tc main_v12)) (W7 m ρ c (Proc.devRef .tc main_v107)) = _
  rw [w7_v78, w7_v49, w7_v12, w7_v107]
  exact finishPlain_eq _ _ _ _

theorem w8_out1 : W8 m ρ c (Proc.devRef .tc main_v109_1)
    = Cert.ReferenceIdeal.Read.val_main_v126 (F := Ideal) (a0 m c) (a1 m c) (a2 m c) (a3 m c) (a4 m c) (a7 m c) (a8 m c) := by
  refine (W8_arr m ρ c 8).trans ?_
  rw [arr3b (V7 m ρ) c]
  show finishPlain (W7 m ρ c (Proc.devRef .tc main_v106)) (W7 m ρ c (Proc.devRef .tc main_v50))
    (W7 m ρ c (Proc.devRef .tc main_v12)) (W7 m ρ c (Proc.devRef .tc main_v108)) = _
  rw [w7_v106, w7_v50, w7_v12, w7_v108]
  exact finishPlain_eq _ _ _ _

end Cert.KernelIdeal.Hand

end
-- ==== Proof.lean ====
/-
  A three-layer graph convolution: the kernel program against its reference, equal over the extended reals.

  Both programs compute, for node features x [50000,128], an edge list (src, dst) of 1.6 million edges, a dropout
  mask and three weights and biases,
      dinv  = (in-degree + 1)^(-1/2),
      conv (h, W, b) = segment_sum ((h·Wᵀ)[src] · dinv[src] · dinv[dst], dst) + (h·Wᵀ) · dinv² + b,
      h  = max (conv (x, W0, b0) · mask, 0),   result 0 = conv (h, W1, b1),   result 1 = conv (h, W2, b2).
  The reference does all of it with host operations. The kernel program keeps the edge-indexed gathers and
  scatter-adds on the host, spelt operation by operation as the reference spells them, and computes in four kernel
  regions, each in ten row tiles of 5000 rows: x·W0ᵀ; the first layer's finish max (((S + H·D) + B)·M, 0); the product
  of h with W1ᵀ and W2ᵀ laid side by side, whose two column halves are h·W1ᵀ and h·W2ᵀ; and the two later finishes
  (S + H·D) + B. Over the extended reals a change of float format is the identity and a matrix-unit product into a
  zero accumulator is the plain sum of products, so each region's result array is, entry by entry, the reference's
  stage of the same name, and the host operations between the regions carry equal arrays to equal arrays. No law of
  arithmetic beyond that is needed (the same sums and products of the same entries, in the same order and grouping),
  so the precondition is never opened.

  The modules: KernelRun (the kernel program's run with its two result buffers named at the end of the fold of its
  boundaries), Region0 … Region3 (each region's result array as one entry-by-entry function of the arrays it finds),
  Bridge (those functions met with the reference's whole-array operations), FoldA and FoldB (the fold walked back to
  the argument arrays), and the claims below.
-/
import proofs.«100397_j84731114816416_1_alg».proof.Defs
import proofs.«100397_j84731114816416_1_alg».proof.Proof.Gen.Kernel
import proofs.«100397_j84731114816416_1_alg».proof.Proof.Gen.Kernel.Frame
import proofs.«100397_j84731114816416_1_alg».proof.Proof.Gen.KernelIdeal
import proofs.«100397_j84731114816416_1_alg».proof.Proof.Gen.KernelIdeal.Frame
import proofs.«100397_j84731114816416_1_alg».proof.Proof.Gen.ReferenceIdeal
import proofs.«100397_j84731114816416_1_alg».proof.Proof.Gen.ReferenceIdeal.Run
import proofs.«100397_j84731114816416_1_alg».proof.Proof.Gen.ReferenceIdeal.Read
import proofs.«100397_j84731114816416_1_alg».proof.Proof.Gen.Pre_finite_inputs
import proofs.«100397_j84731114816416_1_alg».proof.Proof.KernelRun
import proofs.«100397_j84731114816416_1_alg».proof.Proof.FoldB
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing in the kernel program. -/
theorem preserves : Cert.preserves_Kernel_KernelIdeal := trivial

/-- From memories agreeing on the arguments both programs end with the reference's two convolutions of the first
    layer's output, as functions of the argument arrays: the kernel program by the fold of its boundaries walked back,
    the reference by its run. -/
theorem algebraic : Cert.algebraic_KernelIdeal_ReferenceIdeal := by
  intro m ρ m' ρ' _ hagree
  refine ⟨fun c => Cert.ReferenceIdeal.Read.val_main_v88 (F := Ideal) (Cert.KernelIdeal.Hand.a0 m c)
      (Cert.KernelIdeal.Hand.a1 m c) (Cert.KernelIdeal.Hand.a2 m c) (Cert.KernelIdeal.Hand.a3 m c)
      (Cert.KernelIdeal.Hand.a4 m c) (Cert.KernelIdeal.Hand.a5 m c) (Cert.KernelIdeal.Hand.a6 m c),
    fun c => Cert.ReferenceIdeal.Read.val_main_v126 (F := Ideal) (Cert.KernelIdeal.Hand.a0 m c)
      (Cert.KernelIdeal.Hand.a1 m c) (Cert.KernelIdeal.Hand.a2 m c) (Cert.KernelIdeal.Hand.a3 m c)
      (Cert.KernelIdeal.Hand.a4 m c) (Cert.KernelIdeal.Hand.a7 m c) (Cert.KernelIdeal.Hand.a8 m c), ?_, ?_⟩
  · refine (θ_run Cert.KernelIdeal.defs _ _).mono (fun r h c => ?_) (Cert.KernelIdeal.Hand.run_named (F := Ideal) m ρ)
    obtain ⟨h0, h1, hrest⟩ := h c
    exact ⟨h0.trans (Cert.KernelIdeal.Hand.w8_out0 m ρ c), h1.trans (Cert.KernelIdeal.Hand.w8_out1 m ρ c), hrest⟩
  · refine (θ_run Cert.ReferenceIdeal.defs _ _).mono (fun r h c => ?_)
      (Cert.ReferenceIdeal.Value.run (F := Ideal) m' ρ')
    obtain ⟨h0, h1, hrest⟩ := h c
    obtain ⟨e0, e1, e2, e3, e4, e5, e6, e7, e8⟩ := hagree c
    refine ⟨h0.trans ?_, h1.trans ?_, hrest⟩
    · rw [Cert.ReferenceIdeal.Read.val_main_v88_eq, e0, e1, e2, e3, e4, e5, e6]
    · rw [Cert.ReferenceIdeal.Read.val_main_v126_eq, e0, e1, e2, e3, e4, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
